-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg19 : FVec F S1 .f32) (main_arg20 : FVec F S64x1 .f32) (main_arg21 : FVec F S1 .f32) (main_v83 : IVec S_ 1) (main_v84 : FVec F S64x1 .f32) (main_cst_32 : FVec F S_ .f32) : IVec S_ 1 :=
  let main_v85 : FVec F S64x1 .f32 := broadcastInDim S64x1 ![] bcast_S_S64x1 main_cst_32
  let main_v86 : IVec S64x1 1 := cmpf .olt main_v84 main_v85
  let main_c_33 : IVec S_ 1 := constantI S_ 1 1#1
  let main_v87 : IVec S_ 1 := (fun x v => Host.reduce IntOp.andi x v reducesTo_S64x1_S_d0_1 h_S_) main_v86 main_c_33
  let main_v88 : IVec S_ 1 := andi main_v83 main_v87
  let main_v89 : FVec F S1 .f32 := Host.absf main_arg19
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S64x1 .f32 := Host.absf main_arg20
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg21
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg15 : FVec F S1 .f32) (main_arg16 : FVec F S64x1 .f32) (main_arg17 : FVec F S1 .f32) (main_arg18 : FVec F S64x1 .f32) (main_arg19 : FVec F S1 .f32) (main_arg20 : FVec F S64x1 .f32) (main_arg21 : FVec F S1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S64x1 .f32 := Host.absf main_arg16
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S64x1 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S64x1 .f32) (main_arg13 : FVec F S1 .f32) (main_arg14 : FVec F S64x1 .f32) (main_arg15 : FVec F S1 .f32) (main_arg16 : FVec F S64x1 .f32) (main_arg17 : FVec F S1 .f32) (main_arg18 : FVec F S64x1 .f32) (main_arg19 : FVec F S1 .f32) (main_arg20 : FVec F S64x1 .f32) (main_arg21 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_arg16 main_arg17 main_arg18 main_arg19 main_arg20 main_arg21 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) (main_arg16 : FVec F S64x1 .f32) (main_arg17 : FVec F S1 .f32) (main_arg18 : FVec F S64x1 .f32) (main_arg19 : FVec F S1 .f32) (main_arg20 : FVec F S64x1 .f32) (main_arg21 : FVec F S1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) (main_arg16 : FVec F S64x1 .f32) (main_arg17 : FVec F S1 .f32) (main_arg18 : FVec F S64x1 .f32) (main_arg19 : FVec F S1 .f32) (main_arg20 : FVec F S64x1 .f32) (main_arg21 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_arg14 : FVec F S64x1 .f32) (main_arg15 : FVec F S1 .f32) (main_arg16 : FVec F S64x1 .f32) (main_arg17 : FVec F S1 .f32) (main_arg18 : FVec F S64x1 .f32) (main_arg19 : FVec F S1 .f32) (main_arg20 : FVec F S64x1 .f32) (main_arg21 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩
abbrev S5000x64 : Shape := ⟨2, ![5000, 64]⟩
abbrev S5000 : Shape := ⟨1, ![5000]⟩
abbrev S5000x1 : Shape := ⟨2, ![5000, 1]⟩

abbrev nBuf : Space → Nat
  | .hbm => 86
  | .vmem => 28
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x1, .f32⟩
  | .hbm, ⟨15, _⟩ => ⟨S1, .f32⟩
  | .hbm, ⟨16, _⟩ => ⟨S64x1, .f32⟩
  | .hbm, ⟨17, _⟩ => ⟨S1, .f32⟩
  | .hbm, ⟨18, _⟩ => ⟨S64x1, .f32⟩
  | .hbm, ⟨19, _⟩ => ⟨S1, .f32⟩
  | .hbm, ⟨20, _⟩ => ⟨S64x1, .f32⟩
  | .hbm, ⟨21, _⟩ => ⟨S1, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .f32⟩
  | .hbm, ⟨27, _⟩ => ⟨S800000, .f32⟩
  | .hbm, ⟨28, _⟩ => ⟨S_, .f32⟩
  | .hbm, ⟨29, _⟩ => ⟨S50000, .f32⟩
  | .hbm, ⟨30, _⟩ => ⟨S800000x1, .i32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x64, .f32⟩
  | .hbm, ⟨47, _⟩ => ⟨S_, .f32⟩
  | .hbm, ⟨48, _⟩ => ⟨S50000x64, .f32⟩
  | .hbm, ⟨49, _⟩ => ⟨S800000x1, .i32⟩
  | .hbm, ⟨50, _⟩ => ⟨S50000x64, .f32⟩
  | .hbm, ⟨51, _⟩ => ⟨S50000x1, .f32⟩
  | .hbm, ⟨52, _⟩ => ⟨S50000x64, .f32⟩
  | .hbm, ⟨53, _⟩ => ⟨S50000x64, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x64, .f32⟩
  | .hbm, ⟨63, _⟩ => ⟨S_, .f32⟩
  | .hbm, ⟨64, _⟩ => ⟨S50000x64, .f32⟩
  | .hbm, ⟨65, _⟩ => ⟨S800000x1, .i32⟩
  | .hbm, ⟨66, _⟩ => ⟨S50000x64, .f32⟩
  | .hbm, ⟨67, _⟩ => ⟨S50000x1, .f32⟩
  | .hbm, ⟨68, _⟩ => ⟨S50000x64, .f32⟩
  | .hbm, ⟨69, _⟩ => ⟨S50000x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x1, .f32⟩
  | .hbm, ⟨76, _⟩ => ⟨S1x1, .f32⟩
  | .hbm, ⟨77, _⟩ => ⟨S1x1, .f32⟩
  | .hbm, ⟨78, _⟩ => ⟨S1x1, .f32⟩
  | .hbm, ⟨79, _⟩ => ⟨S1x1, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S64x64, .f32⟩
  | .local _ .vmem, ⟨7, _⟩ => ⟨S1x64, .f32⟩
  | .local _ .vmem, ⟨8, _⟩ => ⟨S1x64, .f32⟩
  | .local _ .vmem, ⟨9, _⟩ => ⟨S1x1, .f32⟩
  | .local _ .vmem, ⟨10, _⟩ => ⟨S64x64, .f32⟩
  | .local _ .vmem, ⟨11, _⟩ => ⟨S1x64, .f32⟩
  | .local _ .vmem, ⟨12, _⟩ => ⟨S1x64, .f32⟩
  | .local _ .vmem, ⟨13, _⟩ => ⟨S1x1, .f32⟩
  | .local _ .vmem, ⟨14, _⟩ => ⟨S64x64, .f32⟩
  | .local _ .vmem, ⟨15, _⟩ => ⟨S1x64, .f32⟩
  | .local _ .vmem, ⟨16, _⟩ => ⟨S1x64, .f32⟩
  | .local _ .vmem, ⟨17, _⟩ => ⟨S1x1, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x1, .f32⟩
  | .local _ .vmem, ⟨22, _⟩ => ⟨S64x64, .f32⟩
  | .local _ .vmem, ⟨23, _⟩ => ⟨S1x64, .f32⟩
  | .local _ .vmem, ⟨24, _⟩ => ⟨S1x64, .f32⟩
  | .local _ .vmem, ⟨25, _⟩ => ⟨S1x1, .f32⟩
  | .local _ .vmem, ⟨26, _⟩ => ⟨S5000x64, .f32⟩
  | .local _ .vmem, ⟨27, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg23_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem23_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 2 → Memref sig .tc .vmem S5000x64 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  shapeCasts_S64_S1x64 : S64.ShapeCasts S1x64
  shapeCasts_S1_S1x1 : S1.ShapeCasts S1x1
  transposes_S64x1_S1x64_1_0 : S64x1.Transposes [1, 0] S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  broadcasts_S5000x1_S5000x64 : S5000x1.Broadcasts S5000x64
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x64.size a ≤ S1x64.size a
  hwx0_16 : ∀ i : grid0.Coords, EltTy.bits .f32 = 32 ∨ (Rect.block (s := S1x64) S1x64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S1x64.size a ≤ S1x64.size a
  hwx0_17 : ∀ i : grid0.Coords, EltTy.bits .f32 = 32 ∨ (Rect.block (s := S1x64) S1x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x64.size a ≤ S64x64.size a
  hwx0_19 : ∀ i : grid0.Coords, EltTy.bits .f32 = 32 ∨ (Rect.block (s := S64x64) S64x64.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x64.size a ≤ S1x64.size a
  hwx0_20 : ∀ i : grid0.Coords, EltTy.bits .f32 = 32 ∨ (Rect.block (s := S1x64) S1x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S1x64.size a ≤ S1x64.size a
  hwx0_21 : ∀ i : grid0.Coords, EltTy.bits .f32 = 32 ∨ (Rect.block (s := S1x64) S1x64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x1.size a ≤ S1x1.size a
  hwx0_22 : ∀ i : grid0.Coords, EltTy.bits .f32 = 32 ∨ (Rect.block (s := S1x1) S1x1.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S5000x64.size a ≤ S50000x64.size a
  hwx0_23 : ∀ i : grid0.Coords, EltTy.bits .f32 = 32 ∨ (Rect.block (s := S50000x64) S5000x64.size (cc0_transform_23 i) (hinb0_23 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v49) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v44) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg6) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v40) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v50) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v45) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg8) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v41) S1x64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v51) S1x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v46) S1x1.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg10) S64x64.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v42) S1x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v52) S1x64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v47) S1x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v53) S5000x64.size cc0_transform_23 reads0_23 true false 2 stage0_23 sem0_23
    hrank0 hreads0_23 hinb0_23 nbuf0_23 (Memref.isWhole_whole _) hwx0_23 hstage0_23

abbrev win0 : Fin 24 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | ⟨_ + 24, h⟩ => absurd h (Nat.not_lt.2 (Nat.le_add_left _ _))
abbrev spec0 : Fin 24 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S1x1 : Shape := ⟨2, ![1, 1]⟩

abbrev nBuf : Space → Nat
  | .hbm => 198
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x64, .f32⟩
  | 11 => ⟨S64, .f32⟩
  | 12 => ⟨S64x1, .f32⟩
  | 13 => ⟨S1, .f32⟩
  | 14 => ⟨S64x1, .f32⟩
  | 15 => ⟨S1, .f32⟩
  | 16 => ⟨S64x1, .f32⟩
  | 17 => ⟨S1, .f32⟩
  | 18 => ⟨S64x1, .f32⟩
  | 19 => ⟨S1, .f32⟩
  | 20 => ⟨S64x1, .f32⟩
  | 21 => ⟨S1, .f32⟩
  | 22 => ⟨S1x800000, .i32⟩
  | 23 => ⟨S800000, .i32⟩
  | 24 => ⟨S1x800000, .i32⟩
  | 25 => ⟨S800000, .i32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S_, .f32⟩
  | 48 => ⟨S50000x64, .f32⟩
  | 49 => ⟨S800000x1, .i32⟩
  | 50 => ⟨S50000x64, .f32⟩
  | 51 => ⟨S50000x1, .f32⟩
  | 52 => ⟨S50000x64, .f32⟩
  | 53 => ⟨S50000x64, .f32⟩
  | 54 => ⟨S_, .i32⟩
  | 55 => ⟨S800000, .i32⟩
  | 56 => ⟨S800000, .i1⟩
  | 57 => ⟨S_, .i32⟩
  | 58 => ⟨S800000, .i32⟩
  | 59 => ⟨S800000, .i32⟩
  | 60 => ⟨S800000, .i32⟩
  | 61 => ⟨S800000x1, .i32⟩
  | 62 => ⟨S800000x64, .f32⟩
  | 63 => ⟨S_, .f32⟩
  | 64 => ⟨S50000x64, .f32⟩
  | 65 => ⟨S800000x1, .i32⟩
  | 66 => ⟨S50000x64, .f32⟩
  | 67 => ⟨S50000x1, .f32⟩
  | 68 => ⟨S50000x64, .f32⟩
  | 69 => ⟨S50000x64, .f32⟩
  | 70 => ⟨S50000x64, .f32⟩
  | 71 => ⟨S_, .f32⟩
  | 72 => ⟨S50000x64, .f32⟩
  | 73 => ⟨S50000x64, .f32⟩
  | 74 => ⟨S50000x64, .f32⟩
  | 75 => ⟨S50000x64, .f32⟩
  | 76 => ⟨S_, .f32⟩
  | 77 => ⟨S50000x64, .f32⟩
  | 78 => ⟨S50000x64, .f32⟩
  | 79 => ⟨S1x64, .f32⟩
  | 80 => ⟨S50000x64, .f32⟩
  | 81 => ⟨S50000x64, .f32⟩
  | 82 => ⟨S_, .f32⟩
  | 83 => ⟨S50000x64, .f32⟩
  | 84 => ⟨S50000x64, .f32⟩
  | 85 => ⟨S50000x1, .f32⟩
  | 86 => ⟨S1x1, .f32⟩
  | 87 => ⟨S50000x1, .f32⟩
  | 88 => ⟨S50000x1, .f32⟩
  | 89 => ⟨S50000x1, .f32⟩
  | 90 => ⟨S50000x1, .f32⟩
  | 91 => ⟨S_, .f32⟩
  | 92 => ⟨S50000x1, .f32⟩
  | 93 => ⟨S50000x1, .f32⟩
  | 94 => ⟨S_, .f32⟩
  | 95 => ⟨S50000x1, .f32⟩
  | 96 => ⟨S50000x1, .f32⟩
  | 97 => ⟨S50000, .f32⟩
  | 98 => ⟨S50000x1, .f32⟩
  | 99 => ⟨S50000x64, .f32⟩
  | 100 => ⟨S50000x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S_, .f32⟩
  | 107 => ⟨S50000x64, .f32⟩
  | 108 => ⟨S50000x64, .f32⟩
  | 109 => ⟨S50000x1, .f32⟩
  | 110 => ⟨S1x1, .f32⟩
  | 111 => ⟨S50000x1, .f32⟩
  | 112 => ⟨S50000x1, .f32⟩
  | 113 => ⟨S50000x1, .f32⟩
  | 114 => ⟨S50000x1, .f32⟩
  | 115 => ⟨S_, .f32⟩
  | 116 => ⟨S50000x1, .f32⟩
  | 117 => ⟨S50000x1, .f32⟩
  | 118 => ⟨S_, .f32⟩
  | 119 => ⟨S50000x1, .f32⟩
  | 120 => ⟨S50000x1, .f32⟩
  | 121 => ⟨S50000, .f32⟩
  | 122 => ⟨S50000x1, .f32⟩
  | 123 => ⟨S50000x64, .f32⟩
  | 124 => ⟨S50000x64, .f32⟩
  | 125 => ⟨S50000x64, .f32⟩
  | 126 => ⟨S50000x64, .f32⟩
  | 127 => ⟨S1x64, .f32⟩
  | _ => ⟨S50000x64, .f32⟩

abbrev hbmTy0_1 (i : Nat) : BufTy := match i % 128 with
  | 0 => ⟨S50000x64, .f32⟩
  | 1 => ⟨S50000x64, .f32⟩
  | 2 => ⟨S_, .f32⟩
  | 3 => ⟨S50000x64, .f32⟩
  | 4 => ⟨S50000x64, .f32⟩
  | 5 => ⟨S50000x1, .f32⟩
  | 6 => ⟨S1x1, .f32⟩
  | 7 => ⟨S50000x1, .f32⟩
  | 8 => ⟨S50000x1, .f32⟩
  | 9 => ⟨S50000x1, .f32⟩
  | 10 => ⟨S50000x1, .f32⟩
  | 11 => ⟨S_, .f32⟩
  | 12 => ⟨S50000x1, .f32⟩
  | 13 => ⟨S50000x1, .f32⟩
  | 14 => ⟨S_, .f32⟩
  | 15 => ⟨S50000x1, .f32⟩
  | 16 => ⟨S50000x1, .f32⟩
  | 17 => ⟨S50000, .f32⟩
  | 18 => ⟨S50000x1, .f32⟩
  | 19 => ⟨S50000x64, .f32⟩
  | 20 => ⟨S50000x64, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S50000x1, .f32⟩
  | 30 => ⟨S1x1, .f32⟩
  | 31 => ⟨S50000x1, .f32⟩
  | 32 => ⟨S50000x1, .f32⟩
  | 33 => ⟨S50000x1, .f32⟩
  | 34 => ⟨S50000x1, .f32⟩
  | 35 => ⟨S_, .f32⟩
  | 36 => ⟨S50000x1, .f32⟩
  | 37 => ⟨S50000x1, .f32⟩
  | 38 => ⟨S_, .f32⟩
  | 39 => ⟨S50000x1, .f32⟩
  | 40 => ⟨S50000x1, .f32⟩
  | 41 => ⟨S50000, .f32⟩
  | 42 => ⟨S50000x1, .f32⟩
  | 43 => ⟨S50000x64, .f32⟩
  | 44 => ⟨S50000x64, .f32⟩
  | 45 => ⟨S50000x64, .f32⟩
  | 46 => ⟨S50000x64, .f32⟩
  | 47 => ⟨S1x64, .f32⟩
  | 48 => ⟨S50000x64, .f32⟩
  | 49 => ⟨S50000x64, .f32⟩
  | 50 => ⟨S_, .f32⟩
  | 51 => ⟨S50000x64, .f32⟩
  | 52 => ⟨S50000x64, .f32⟩
  | 53 => ⟨S50000x1, .f32⟩
  | 54 => ⟨S1x1, .f32⟩
  | 55 => ⟨S50000x1, .f32⟩
  | 56 => ⟨S50000x1, .f32⟩
  | 57 => ⟨S50000x1, .f32⟩
  | 58 => ⟨S50000x1, .f32⟩
  | 59 => ⟨S_, .f32⟩
  | 60 => ⟨S50000x1, .f32⟩
  | 61 => ⟨S50000x1, .f32⟩
  | 62 => ⟨S_, .f32⟩
  | 63 => ⟨S50000x1, .f32⟩
  | 64 => ⟨S50000x1, .f32⟩
  | 65 => ⟨S50000, .f32⟩
  | 66 => ⟨S50000x1, .f32⟩
  | 67 => ⟨S50000x64, .f32⟩
  | 68 => ⟨S50000x64, .f32⟩
  | 69 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_4 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_c_5 : Ref sig .tc := ⟨.hbm, 54, rfl⟩
abbrev main_v25 : Ref sig .tc := ⟨.hbm, 55, rfl⟩
abbrev main_v26 : Ref sig .tc := ⟨.hbm, 56, rfl⟩
abbrev main_c_6 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_8 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_call0_cst : Ref sig .tc := ⟨.hbm, 82, rfl⟩
abbrev main_call0_v0 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_10 : Ref sig .tc := ⟨.hbm, 91, rfl⟩
abbrev main_v55 : Ref sig .tc := ⟨.hbm, 92, rfl⟩
abbrev main_v56 : Ref sig .tc := ⟨.hbm, 93, rfl⟩
abbrev main_cst_11 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call1_cst : Ref sig .tc := ⟨.hbm, 106, rfl⟩
abbrev main_call1_v0 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_12 : Ref sig .tc := ⟨.hbm, 115, rfl⟩
abbrev main_v75 : Ref sig .tc := ⟨.hbm, 116, rfl⟩
abbrev main_v76 : Ref sig .tc := ⟨.hbm, 117, rfl⟩
abbrev main_cst_13 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_call2_cst : Ref sig .tc := ⟨.hbm, 130, rfl⟩
abbrev main_call2_v0 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_14 : Ref sig .tc := ⟨.hbm, 139, rfl⟩
abbrev main_v95 : Ref sig .tc := ⟨.hbm, 140, rfl⟩
abbrev main_v96 : Ref sig .tc := ⟨.hbm, 141, rfl⟩
abbrev main_cst_15 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_call3_cst : Ref sig .tc := ⟨.hbm, 154, rfl⟩
abbrev main_call3_v0 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_16 : Ref sig .tc := ⟨.hbm, 163, rfl⟩
abbrev main_v115 : Ref sig .tc := ⟨.hbm, 164, rfl⟩
abbrev main_v116 : Ref sig .tc := ⟨.hbm, 165, rfl⟩
abbrev main_cst_17 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_call4_cst : Ref sig .tc := ⟨.hbm, 178, rfl⟩
abbrev main_call4_v0 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_cst_18 : Ref sig .tc := ⟨.hbm, 187, rfl⟩
abbrev main_v135 : Ref sig .tc := ⟨.hbm, 188, rfl⟩
abbrev main_v136 : Ref sig .tc := ⟨.hbm, 189, rfl⟩
abbrev main_cst_19 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  shapeCasts_S50000x1_S50000 : S50000x1.ShapeCasts S50000
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.Filter.lean ====
/-
  One graph filter of the mixture, as arithmetic on the extended reals, row by row.

  A node's row `p : Fin 64 → EReal` (one of `x`, `Âx`, `x - Âx`, `Â²x`, `x - 2·Âx + Â²x`) goes through a dense
  layer `W, b` and a rectifier: `hid p W b k = max (∑ l, p l · W l k + b k) 0`.  A scalar gate weighs the whole
  hidden row: `σ (∑ k, hid k · wa k + ba)`, with `σ g = 1 / (1 + e^(-g))` the logistic function, and the filter's
  contribution to column `j` is gate · hid j.  The mixture adds the five filters' contributions in the order
  high-pass, low-pass, squared high-pass, squared low-pass, identity.

  Nothing here needs the entries to be finite: the two programs compared through these definitions apply the
  same operations in the same order, so the comparison never distributes, cancels or reorders a product over a sum.
-/
import Idealize.ShloMosaic.PureOps.Ideal
import Idealize.ShloMosaic.PureOps.Ideal.Laws
import Idealize.ShloMosaic.Lib.ValueIdx

noncomputable section

namespace Cert.Filter

open Idealize.ShloMosaic

/-- The pattern of `1.0` denotes the real number one. -/
theorem ofBits_one : Ideal.ofBits .f32 0x3F800000#32 = 1 := by
  simp [Ideal.ofBits, Ideal.ieee, -EReal.coe_mul]; norm_num

/-- The logistic function spelled with the pattern of `1.0` in both places, a quotient of one by one plus the
    exponential of the negated argument, is the logistic function. -/
theorem logistic_spelled (g : EReal) :
    Ideal.div (Ideal.ofBits .f32 0x3F800000#32) (Ideal.ofBits .f32 0x3F800000#32 + Ideal.exp (-g)) = Ideal.logistic g := by
  rw [ofBits_one]; rfl

/-- The rectified dense layer at hidden unit `k`: `max (∑ l, p l · W l k + b k) 0`. -/
def hid (p : Fin 64 → EReal) (W : Fin 64 → Fin 64 → EReal) (b : Fin 64 → EReal) (k : Fin 64) : EReal :=
  max ((∑ l : Fin 64, p l * W l k) + b k) (Ideal.ofBits .f32 0x00000000#32)

/-- The gate of a row: the logistic function of the hidden row's weighted sum plus a bias. -/
def gate (p : Fin 64 → EReal) (W : Fin 64 → Fin 64 → EReal) (b wa : Fin 64 → EReal) (ba : EReal) : EReal :=
  Ideal.logistic ((∑ k : Fin 64, hid p W b k * wa k) + ba)

/-- One filter's contribution to column `j` of a row: its gate times its hidden unit `j`. -/
def gated (p : Fin 64 → EReal) (W : Fin 64 → Fin 64 → EReal) (b wa : Fin 64 → EReal) (ba : EReal) (j : Fin 64) : EReal :=
  gate p W b wa ba * hid p W b j

/-- The five filters' inputs from a node's three rows `x`, `Âx`, `Â²x`. -/
def hp (x ax : Fin 64 → EReal) : Fin 64 → EReal := fun l => x l - ax l
def hp2 (x ax aax : Fin 64 → EReal) : Fin 64 → EReal :=
  fun l => x l - Ideal.ofBits .f32 0x40000000#32 * ax l + aax l

/-- The mixture at column `j` of a row: high-pass, low-pass, squared high-pass, squared low-pass, identity, added in
    that order. -/
def mix (x ax aax : Fin 64 → EReal)
    (Whp : Fin 64 → Fin 64 → EReal) (bhp wahp : Fin 64 → EReal) (bahp : EReal)
    (Wlp : Fin 64 → Fin 64 → EReal) (blp walp : Fin 64 → EReal) (balp : EReal)
    (Wi : Fin 64 → Fin 64 → EReal) (bi wai : Fin 64 → EReal) (bai : EReal)
    (Whp2 : Fin 64 → Fin 64 → EReal) (bhp2 wahp2 : Fin 64 → EReal) (bahp2 : EReal)
    (Wlp2 : Fin 64 → Fin 64 → EReal) (blp2 walp2 : Fin 64 → EReal) (balp2 : EReal) (j : Fin 64) : EReal :=
  gated (hp x ax) Whp bhp wahp bahp j + gated ax Wlp blp walp balp j + gated (hp2 x ax aax) Whp2 bhp2 wahp2 bahp2 j
    + gated aax Wlp2 blp2 walp2 balp2 j + gated x Wi bi wai bai j

/-! ## The mixture of whole arrays -/

open Idealize.ShloMosaic.ValueIdx in
/-- The mixture of node `r`, column `j`, from the node features `x0`, the two neighbourhood averages `AX`, `AAX` (50000 × 64
    each) and the twenty weight arrays in the order the programs take them: five 64 × 64 weights with their 64-vectors of
    biases (high-pass, low-pass, identity, squared high-pass, squared low-pass), then the five 64 × 1 gate weights with their
    one-element biases (high-pass, low-pass, identity, squared high-pass, squared low-pass). -/
def nodeMixAt (x0 AX AAX : (⟨2, ![50000, 64]⟩ : Shape).Idx → EReal) (x2 : (⟨2, ![64, 64]⟩ : Shape).Idx → EReal) (x3 : (⟨1, ![64]⟩ : Shape).Idx → EReal) (x4 : (⟨2, ![64, 64]⟩ : Shape).Idx → EReal) (x5 : (⟨1, ![64]⟩ : Shape).Idx → EReal) (x6 : (⟨2, ![64, 64]⟩ : Shape).Idx → EReal) (x7 : (⟨1, ![64]⟩ : Shape).Idx → EReal) (x8 : (⟨2, ![64, 64]⟩ : Shape).Idx → EReal) (x9 : (⟨1, ![64]⟩ : Shape).Idx → EReal) (x10 : (⟨2, ![64, 64]⟩ : Shape).Idx → EReal) (x11 : (⟨1, ![64]⟩ : Shape).Idx → EReal) (x12 : (⟨2, ![64, 1]⟩ : Shape).Idx → EReal) (x13 : (⟨1, ![1]⟩ : Shape).Idx → EReal) (x14 : (⟨2, ![64, 1]⟩ : Shape).Idx → EReal) (x15 : (⟨1, ![1]⟩ : Shape).Idx → EReal) (x16 : (⟨2, ![64, 1]⟩ : Shape).Idx → EReal) (x17 : (⟨1, ![1]⟩ : Shape).Idx → EReal) (x18 : (⟨2, ![64, 1]⟩ : Shape).Idx → EReal) (x19 : (⟨1, ![1]⟩ : Shape).Idx → EReal) (x20 : (⟨2, ![64, 1]⟩ : Shape).Idx → EReal) (x21 : (⟨1, ![1]⟩ : Shape).Idx → EReal)
    (r : Fin 50000) (j : Fin 64) : EReal :=
  mix (fun l => x0 (ix2 r l)) (fun l => AX (ix2 r l)) (fun l => AAX (ix2 r l))
    (fun l k => x2 (ix2 l k)) (fun k => x3 (ix1 k)) (fun k => x12 (ix2 k 0)) (x13 (ix1 0))
    (fun l k => x4 (ix2 l k)) (fun k => x5 (ix1 k)) (fun k => x14 (ix2 k 0)) (x15 (ix1 0))
    (fun l k => x6 (ix2 l k)) (fun k => x7 (ix1 k)) (fun k => x16 (ix2 k 0)) (x17 (ix1 0))
    (fun l k => x8 (ix2 l k)) (fun k => x9 (ix1 k)) (fun k => x18 (ix2 k 0)) (x19 (ix1 0))
    (fun l k => x10 (ix2 l k)) (fun k => x11 (ix1 k)) (fun k => x20 (ix2 k 0)) (x21 (ix1 0)) j

/-- The whole 50000 × 64 result: at every index the mixture of its row. -/
def nodeMix (x0 AX AAX : (⟨2, ![50000, 64]⟩ : Shape).Idx → EReal) (x2 : (⟨2, ![64, 64]⟩ : Shape).Idx → EReal) (x3 : (⟨1, ![64]⟩ : Shape).Idx → EReal) (x4 : (⟨2, ![64, 64]⟩ : Shape).Idx → EReal) (x5 : (⟨1, ![64]⟩ : Shape).Idx → EReal) (x6 : (⟨2, ![64, 64]⟩ : Shape).Idx → EReal) (x7 : (⟨1, ![64]⟩ : Shape).Idx → EReal) (x8 : (⟨2, ![64, 64]⟩ : Shape).Idx → EReal) (x9 : (⟨1, ![64]⟩ : Shape).Idx → EReal) (x10 : (⟨2, ![64, 64]⟩ : Shape).Idx → EReal) (x11 : (⟨1, ![64]⟩ : Shape).Idx → EReal) (x12 : (⟨2, ![64, 1]⟩ : Shape).Idx → EReal) (x13 : (⟨1, ![1]⟩ : Shape).Idx → EReal) (x14 : (⟨2, ![64, 1]⟩ : Shape).Idx → EReal) (x15 : (⟨1, ![1]⟩ : Shape).Idx → EReal) (x16 : (⟨2, ![64, 1]⟩ : Shape).Idx → EReal) (x17 : (⟨1, ![1]⟩ : Shape).Idx → EReal) (x18 : (⟨2, ![64, 1]⟩ : Shape).Idx → EReal) (x19 : (⟨1, ![1]⟩ : Shape).Idx → EReal) (x20 : (⟨2, ![64, 1]⟩ : Shape).Idx → EReal) (x21 : (⟨1, ![1]⟩ : Shape).Idx → EReal) :
    (⟨2, ![50000, 64]⟩ : Shape).Idx → EReal :=
  fun i => nodeMixAt x0 AX AAX x2 x3 x4 x5 x6 x7 x8 x9 x10 x11 x12 x13 x14 x15 x16 x17 x18 x19 x20 x21 (i 0) (i 1)

end Cert.Filter

end
-- ==== Proof.Block.lean ====
/-
  One filter on one block of 5000 rows, read entry by entry.

  The kernel's body applies the same five-step pipeline to each of its five inputs: a 64-wide matrix product into a zero
  accumulator (the change to a narrower float format before it is the identity on the extended reals), a row bias, a
  rectifier, a gate — the lane sum of the hidden row weighted by a row vector, plus a bias, through the logistic
  function, kept as a column — and the product of the gate, spread back over the row, with the hidden row.  Here each
  step is read at a row `r` and a column, so that a whole filter on a block becomes `Filter.gated` of row `r` of
  its input, and the five of them added become `Filter.mix`.
-/
import proofs.«102541_j52012053954565_2_alg».proof.Proof.Gen.KernelIdeal
import proofs.«102541_j52012053954565_2_alg».proof.Proof.Filter
import Idealize.ShloMosaic.Lib.ValueIdx
import Idealize.ShloMosaic.Lib.Pipeline.Value
import Idealize.ShloMosaic.PureOps.Ideal.Laws

noncomputable section

namespace Cert.KernelIdeal.Block

open Cert.KernelIdeal Idealize.ShloMosaic Idealize.ShloMosaic.ValueIdx Cert.Filter
open Cert.KernelIdeal.Facts₀ Cert.KernelIdeal.Facts

/-! ## The layout steps at an index -/

/-- A row vector spread over the block's rows: entry `(r, k)` is the vector's entry `k`. -/
theorem rowSpread_apply (b : FVec Ideal S1x64 .f32) (r : Fin 5000) (k : Fin 64) :
    broadcastTo S5000x64 (shapeCast S1x64 b shapeCasts_S1x64_S1x64) broadcasts_S1x64_S5000x64 (ix2 r k) = b (ix2 0 k) := by
  rw [shapeCast_self]
  exact broadcastTo_apply b broadcasts_S1x64_S5000x64 (ix2 r k) (ix2 0 k) (fun a => match a with
    | ⟨0, _⟩ => by show 0 = (if (1 : Nat) = 1 then 0 else r.val); rw [if_pos rfl]
    | ⟨1, _⟩ => by show k.val = (if (64 : Nat) = 1 then 0 else k.val); rw [if_neg (by decide)])

/-- A single number spread down a column of 5000: every entry is that number. -/
theorem oneSpread_apply (ba : FVec Ideal S1x1 .f32) (r : Fin 5000) :
    broadcastTo S5000x1 (shapeCast S1x1 ba shapeCasts_S1x1_S1x1) broadcasts_S1x1_S5000x1 (ix2 r 0) = ba (ix2 0 0) := by
  rw [shapeCast_self]
  exact broadcastTo_apply ba broadcasts_S1x1_S5000x1 (ix2 r 0) (ix2 0 0) (fun a => match a with
    | ⟨0, _⟩ => by show 0 = (if (1 : Nat) = 1 then 0 else r.val); rw [if_pos rfl]
    | ⟨1, _⟩ => by show 0 = (if (1 : Nat) = 1 then 0 else 0); rw [if_pos rfl])

/-- A column of 5000 spread over 64 columns: entry `(r, j)` is the column's entry `r`. -/
theorem colSpread_apply (g : FVec Ideal S5000x1 .f32) (r : Fin 5000) (j : Fin 64) :
    broadcastTo S5000x64 g broadcasts_S5000x1_S5000x64 (ix2 r j) = g (ix2 r 0) :=
  broadcastTo_apply g broadcasts_S5000x1_S5000x64 (ix2 r j) (ix2 r 0) (fun a => match a with
    | ⟨0, _⟩ => by show r.val = (if (5000 : Nat) = 1 then 0 else r.val); rw [if_neg (by decide)]
    | ⟨1, _⟩ => by show 0 = (if (1 : Nat) = 1 then 0 else j.val); rw [if_pos rfl])

/-- A vector of 5000 stood up as a column: entry `(r, 0)` is the vector's entry `r`. -/
theorem asColumn_apply (s : FVec Ideal S5000 .f32) (r : Fin 5000) :
    shapeCast S5000x1 s shapeCasts_S5000_S5000x1 (ix2 r 0) = s (ix1 r) :=
  shapeCast_apply s shapeCasts_S5000_S5000x1 (ix2 r 0) (ix1 r)
    (by rw [Shape.rowMajor_val_one, Shape.rowMajor_val_two]; show r.val = r.val * 1 + 0; omega)

/-- The sum over a row's 64 lanes, into a zero start: entry `r` is the sum of row `r`. -/
theorem laneSum_apply (v : FVec Ideal S5000x64 .f32) (hφ : FKind.Formats .f32)
    (hacc : (0x00000000#32 : BitVec 32) = 0x00000000#32) (r : Fin 5000) :
    multiReduction .add [1] S5000 v 0x00000000#32 reduces_S5000x64_S5000 hφ hacc (ix1 r) = ∑ k : Fin 64, v (ix2 r k) := by
  refine (Ideal.multiReduction_add_single v 0x00000000#32 reduces_S5000x64_S5000 hφ hacc (ix1 r)).trans ?_
  refine Finset.sum_congr rfl fun k _ => congrArg v ?_
  funext a; apply Fin.ext
  rw [Shape.Reduces.lift_val]
  match a with
  | ⟨0, _⟩ => rfl
  | ⟨1, _⟩ => rfl

/-- A row index of the product's left operand is the output's row. -/
theorem dense_lhs_row (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- A column index of the product's right operand is the output's column. -/
theorem dense_rhs_col (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The 64-wide matrix product into a zero accumulator: entry `(r, k)` is `∑ l, P (r, l) · W (l, k)`. -/
theorem dense_apply (P : FVec Ideal S5000x64 .f32) (W : FVec Ideal S64x64 .f32) (r : Fin 5000) (k : Fin 64) :
    matmul dot_S5000x64_S64x64_S5000x64_1_0_0_1_n_n none (truncf .bf16 P bitsLt_bf16_f32) (truncf .bf16 W bitsLt_bf16_f32)
        (constant S5000x64 .f32 0x00000000#32) (ix2 r k)
      = ∑ l : Fin 64, P (ix2 r l) * W (ix2 l k) := by
  simp only [matmul]
  rw [Ideal.matmul_constant_zero_apply, ← Equiv.sum_comp (contrEquiv1 dot_S5000x64_S64x64_S5000x64_1_0_0_1_n_n 64 rfl rfl).symm]
  refine Finset.sum_congr rfl fun l _ => ?_
  have hl := contrEquiv1_symm_val dot_S5000x64_S64x64_S5000x64_1_0_0_1_n_n 64 rfl rfl l
  have el : dot_S5000x64_S64x64_S5000x64_1_0_0_1_n_n.lhsIdx (ix2 r k) ((contrEquiv1 dot_S5000x64_S64x64_S5000x64_1_0_0_1_n_n 64 rfl rfl).symm l) = ix2 r l := funext fun a => Fin.ext (by
    match a with
    | ⟨0, _⟩ => exact dense_lhs_row _ _
    | ⟨1, _⟩ => exact (dot_S5000x64_S64x64_S5000x64_1_0_0_1_n_n.lhsIdx_val_of_single rfl (ix2 r k) _).trans hl)
  have er : dot_S5000x64_S64x64_S5000x64_1_0_0_1_n_n.rhsIdx (ix2 r k) ((contrEquiv1 dot_S5000x64_S64x64_S5000x64_1_0_0_1_n_n 64 rfl rfl).symm l) = ix2 l k := funext fun a => Fin.ext (by
    match a with
    | ⟨0, _⟩ => exact (dot_S5000x64_S64x64_S5000x64_1_0_0_1_n_n.rhsIdx_val_of_single rfl (ix2 r k) _).trans hl
    | ⟨1, _⟩ => exact dense_rhs_col _ _)
  rw [el, er]
  rfl

/-! ## One filter on a block -/

/-- The hidden block of a filter: the matrix product, the row bias and the rectifier, as the body applies them. -/
def hidBlock (P : FVec Ideal S5000x64 .f32) (W : FVec Ideal S64x64 .f32) (b : FVec Ideal S1x64 .f32) : FVec Ideal S5000x64 .f32 :=
  maximumf (addf (matmul dot_S5000x64_S64x64_S5000x64_1_0_0_1_n_n none (truncf .bf16 P bitsLt_bf16_f32) (truncf .bf16 W bitsLt_bf16_f32)
      (constant S5000x64 .f32 0x00000000#32))
    (broadcastTo S5000x64 (shapeCast S1x64 b shapeCasts_S1x64_S1x64) broadcasts_S1x64_S5000x64))
    (broadcast S5000x64 (Scalar.ofBits .f32 0x00000000#32))

/-- The gate of a hidden block, spread back over the 64 columns, as the body applies it. -/
def gateBlock (H : FVec Ideal S5000x64 .f32) (wa : FVec Ideal S1x64 .f32) (ba : FVec Ideal S1x1 .f32) : FVec Ideal S5000x64 .f32 :=
  broadcastTo S5000x64 (logistic (addf
      (shapeCast S5000x1 (multiReduction .add [1] S5000
        (mulf H (broadcastTo S5000x64 (shapeCast S1x64 wa shapeCasts_S1x64_S1x64) broadcasts_S1x64_S5000x64))
        0x00000000#32 reduces_S5000x64_S5000 (.inl rfl) rfl) shapeCasts_S5000_S5000x1)
      (broadcastTo S5000x1 (shapeCast S1x1 ba shapeCasts_S1x1_S1x1) broadcasts_S1x1_S5000x1)))
    broadcasts_S5000x1_S5000x64

/-- Entry `(r, k)` of the hidden block is the rectified dense layer of row `r` at unit `k`. -/
theorem hidBlock_apply (P : FVec Ideal S5000x64 .f32) (W : FVec Ideal S64x64 .f32) (b : FVec Ideal S1x64 .f32)
    (r : Fin 5000) (k : Fin 64) :
    hidBlock P W b (ix2 r k) = hid (fun l => P (ix2 r l)) (fun l k => W (ix2 l k)) (fun k => b (ix2 0 k)) k := by
  unfold hidBlock hid
  rw [maximumf_apply, addf_apply, dense_apply, rowSpread_apply]
  rfl

/-- Entry `(r, j)` of the spread gate is the gate of row `r`. -/
theorem gateBlock_apply (P : FVec Ideal S5000x64 .f32) (W : FVec Ideal S64x64 .f32) (b wa : FVec Ideal S1x64 .f32)
    (ba : FVec Ideal S1x1 .f32) (r : Fin 5000) (j : Fin 64) :
    gateBlock (hidBlock P W b) wa ba (ix2 r j)
      = gate (fun l => P (ix2 r l)) (fun l k => W (ix2 l k)) (fun k => b (ix2 0 k)) (fun k => wa (ix2 0 k)) (ba (ix2 0 0)) := by
  unfold gateBlock gate
  rw [colSpread_apply]
  show Ideal.logistic (_ + _) = _
  rw [asColumn_apply, oneSpread_apply, laneSum_apply]
  refine congrArg (fun s => Ideal.logistic (s + ba (ix2 0 0))) (Finset.sum_congr rfl fun k _ => ?_)
  rw [mulf_apply, hidBlock_apply, rowSpread_apply]

/-- A filter's contribution on a block, entry `(r, j)`: the gate of row `r` times its hidden unit `j`. -/
theorem gatedBlock_apply (P : FVec Ideal S5000x64 .f32) (W : FVec Ideal S64x64 .f32) (b wa : FVec Ideal S1x64 .f32)
    (ba : FVec Ideal S1x1 .f32) (r : Fin 5000) (j : Fin 64) :
    mulf (gateBlock (hidBlock P W b) wa ba) (hidBlock P W b) (ix2 r j)
      = gated (fun l => P (ix2 r l)) (fun l k => W (ix2 l k)) (fun k => b (ix2 0 k)) (fun k => wa (ix2 0 k)) (ba (ix2 0 0)) j := by
  unfold gated
  rw [mulf_apply, gateBlock_apply, hidBlock_apply]

end Cert.KernelIdeal.Block

end
-- ==== Proof.Mixture.lean ====
/-
  The kernel's result array, entry by entry.

  The body stores one value per grid point: the sum of the five filters' contributions on the point's block of 5000
  rows (`payload_eq`), which at row `r`, column `j` of the block is `Filter.mix` of row `r` of the three row
  blocks `x`, `Âx`, `Â²x` and of the weights (`payload_apply`).  Point `t`'s row blocks are rows
  `5000·t … 5000·t + 4999` of the whole arrays, the weight windows are the whole weight arrays at every point, and
  the point writes back rows `5000·t …` of the result; the ten points cover the 50000 rows.  So the result array
  is, at `(r, j)`, the mixture of row `r` of the arrays the region finds (`final`), and the run ends there with
  the arguments unchanged (`run`).
-/
import proofs.«102541_j52012053954565_2_alg».proof.Proof.KernelIdealFrameP
import Idealize.ShloMosaic.Lib.Pipeline.Value
import proofs.«102541_j52012053954565_2_alg».proof.Proof.Block

noncomputable section

namespace Cert.KernelIdeal.Mixture

open Cert.KernelIdeal Cert.KernelIdeal.Gen Cert.KernelIdeal.GenP Cert.KernelIdeal.Block Idealize.ShloMosaic Idealize.ShloMosaic.TcCoe Idealize.SL.Sem
open Idealize.ShloMosaic.ValueIdx Cert.Filter
open Idealize.ShloMosaic.Pipeline (Dat)

variable (m : (ℓ : Loc nD τ sig) → Buf (Elt Ideal) ℓ) (ρ : Dev nD → PrngReg)

/-! ## The body's stored value -/

/-- The stored value is the five filters' contributions on the block, added in the body's order. -/
theorem payload_eq (x0 : FVec Ideal S5000x64 .f32) (x1 : FVec Ideal S5000x64 .f32) (x2 : FVec Ideal S5000x64 .f32) (x3 : FVec Ideal S64x64 .f32) (x4 : FVec Ideal S1x64 .f32) (x5 : FVec Ideal S1x64 .f32) (x6 : FVec Ideal S1x1 .f32) (x7 : FVec Ideal S64x64 .f32) (x8 : FVec Ideal S1x64 .f32) (x9 : FVec Ideal S1x64 .f32) (x10 : FVec Ideal S1x1 .f32) (x11 : FVec Ideal S64x64 .f32) (x12 : FVec Ideal S1x64 .f32) (x13 : FVec Ideal S1x64 .f32) (x14 : FVec Ideal S1x1 .f32) (x15 : FVec Ideal S64x64 .f32) (x16 : FVec Ideal S1x64 .f32) (x17 : FVec Ideal S1x64 .f32) (x18 : FVec Ideal S1x1 .f32) (x19 : FVec Ideal S64x64 .f32) (x20 : FVec Ideal S1x64 .f32) (x21 : FVec Ideal S1x64 .f32) (x22 : FVec Ideal S1x1 .f32) :
    k0_pay1 (k0_pay9 (k0_pay3 x2) (k0_pay6 (k0_pay4 x0 x1 x3 x4 x5 x6) (k0_pay5 x1 x7 x8) x9 x10) (k0_pay7 x0 (k0_pay2 x1) (k0_pay3 x2) x15 x16) (k0_pay8 x0 (k0_pay2 x1) (k0_pay3 x2) x15 x16 x17 x18) x19 x20 x21 x22) (k0_pay10 x0 x11 x12) (k0_pay11 x0 x11 x12 x13) x14
      = addf (addf (addf (addf (mulf (gateBlock (hidBlock (subf x0 (shapeCast S5000x64 x1 Facts₀.shapeCasts_S5000x64_S5000x64)) x3 x4) x5 x6) (hidBlock (subf x0 (shapeCast S5000x64 x1 Facts₀.shapeCasts_S5000x64_S5000x64)) x3 x4))
        (mulf (gateBlock (hidBlock (shapeCast S5000x64 x1 Facts₀.shapeCasts_S5000x64_S5000x64) x7 x8) x9 x10) (hidBlock (shapeCast S5000x64 x1 Facts₀.shapeCasts_S5000x64_S5000x64) x7 x8)))
        (mulf (gateBlock (hidBlock (addf (subf x0 (mulf (broadcast S5000x64 (Scalar.ofBits .f32 0x40000000#32)) (shapeCast S5000x64 x1 Facts₀.shapeCasts_S5000x64_S5000x64))) (shapeCast S5000x64 x2 Facts₀.shapeCasts_S5000x64_S5000x64)) x15 x16) x17 x18) (hidBlock (addf (subf x0 (mulf (broadcast S5000x64 (Scalar.ofBits .f32 0x40000000#32)) (shapeCast S5000x64 x1 Facts₀.shapeCasts_S5000x64_S5000x64))) (shapeCast S5000x64 x2 Facts₀.shapeCasts_S5000x64_S5000x64)) x15 x16)))
        (mulf (gateBlock (hidBlock (shapeCast S5000x64 x2 Facts₀.shapeCasts_S5000x64_S5000x64) x19 x20) x21 x22) (hidBlock (shapeCast S5000x64 x2 Facts₀.shapeCasts_S5000x64_S5000x64) x19 x20)))
        (mulf (gateBlock (hidBlock x0 x11 x12) x13 x14) (hidBlock x0 x11 x12)) := rfl

/-- At row `r`, column `j` of the block it is the mixture of row `r`. -/
theorem payload_apply (x0 : FVec Ideal S5000x64 .f32) (x1 : FVec Ideal S5000x64 .f32) (x2 : FVec Ideal S5000x64 .f32) (x3 : FVec Ideal S64x64 .f32) (x4 : FVec Ideal S1x64 .f32) (x5 : FVec Ideal S1x64 .f32) (x6 : FVec Ideal S1x1 .f32) (x7 : FVec Ideal S64x64 .f32) (x8 : FVec Ideal S1x64 .f32) (x9 : FVec Ideal S1x64 .f32) (x10 : FVec Ideal S1x1 .f32) (x11 : FVec Ideal S64x64 .f32) (x12 : FVec Ideal S1x64 .f32) (x13 : FVec Ideal S1x64 .f32) (x14 : FVec Ideal S1x1 .f32) (x15 : FVec Ideal S64x64 .f32) (x16 : FVec Ideal S1x64 .f32) (x17 : FVec Ideal S1x64 .f32) (x18 : FVec Ideal S1x1 .f32) (x19 : FVec Ideal S64x64 .f32) (x20 : FVec Ideal S1x64 .f32) (x21 : FVec Ideal S1x64 .f32) (x22 : FVec Ideal S1x1 .f32) (r : Fin 5000) (j : Fin 64) :
    (k0_pay1 (k0_pay9 (k0_pay3 x2) (k0_pay6 (k0_pay4 x0 x1 x3 x4 x5 x6) (k0_pay5 x1 x7 x8) x9 x10) (k0_pay7 x0 (k0_pay2 x1) (k0_pay3 x2) x15 x16) (k0_pay8 x0 (k0_pay2 x1) (k0_pay3 x2) x15 x16 x17 x18) x19 x20 x21 x22) (k0_pay10 x0 x11 x12) (k0_pay11 x0 x11 x12 x13) x14 : FVec Ideal S5000x64 .f32) (ix2 r j)
      = mix (fun l => x0 (ix2 r l)) (fun l => x1 (ix2 r l)) (fun l => x2 (ix2 r l))
      (fun l k => x3 (ix2 l k)) (fun k => x4 (ix2 0 k)) (fun k => x5 (ix2 0 k)) (x6 (ix2 0 0))
      (fun l k => x7 (ix2 l k)) (fun k => x8 (ix2 0 k)) (fun k => x9 (ix2 0 k)) (x10 (ix2 0 0))
      (fun l k => x11 (ix2 l k)) (fun k => x12 (ix2 0 k)) (fun k => x13 (ix2 0 k)) (x14 (ix2 0 0))
      (fun l k => x15 (ix2 l k)) (fun k => x16 (ix2 0 k)) (fun k => x17 (ix2 0 k)) (x18 (ix2 0 0))
      (fun l k => x19 (ix2 l k)) (fun k => x20 (ix2 0 k)) (fun k => x21 (ix2 0 k)) (x22 (ix2 0 0)) j := by
  rw [payload_eq]
  simp only [addf_apply, gatedBlock_apply]
  rw [shapeCast_self, shapeCast_self]
  rfl

/-! ## The result array -/

/-- The mixture of row `r` of whole arrays: the node arrays `X`, `AX`, `AAX` and, per filter, the weight, the
    bias row, the gate's weight row and the gate's bias, in the order the kernel is handed them. -/
def rowMix (X : FVec Ideal S50000x64 .f32) (AX : FVec Ideal S50000x64 .f32) (AAX : FVec Ideal S50000x64 .f32) (W1 : FVec Ideal S64x64 .f32) (b1 : FVec Ideal S1x64 .f32) (a1 : FVec Ideal S1x64 .f32) (c1 : FVec Ideal S1x1 .f32) (W2 : FVec Ideal S64x64 .f32) (b2 : FVec Ideal S1x64 .f32) (a2 : FVec Ideal S1x64 .f32) (c2 : FVec Ideal S1x1 .f32) (W3 : FVec Ideal S64x64 .f32) (b3 : FVec Ideal S1x64 .f32) (a3 : FVec Ideal S1x64 .f32) (c3 : FVec Ideal S1x1 .f32) (W4 : FVec Ideal S64x64 .f32) (b4 : FVec Ideal S1x64 .f32) (a4 : FVec Ideal S1x64 .f32) (c4 : FVec Ideal S1x1 .f32) (W5 : FVec Ideal S64x64 .f32) (b5 : FVec Ideal S1x64 .f32) (a5 : FVec Ideal S1x64 .f32) (c5 : FVec Ideal S1x1 .f32) (r : Fin 50000) (j : Fin 64) : EReal :=
  mix (fun l => X (ix2 r l)) (fun l => AX (ix2 r l)) (fun l => AAX (ix2 r l))
    (fun l k => W1 (ix2 l k)) (fun k => b1 (ix2 0 k)) (fun k => a1 (ix2 0 k)) (c1 (ix2 0 0))
    (fun l k => W2 (ix2 l k)) (fun k => b2 (ix2 0 k)) (fun k => a2 (ix2 0 k)) (c2 (ix2 0 0))
    (fun l k => W3 (ix2 l k)) (fun k => b3 (ix2 0 k)) (fun k => a3 (ix2 0 k)) (c3 (ix2 0 0))
    (fun l k => W4 (ix2 l k)) (fun k => b4 (ix2 0 k)) (fun k => a4 (ix2 0 k)) (c4 (ix2 0 0))
    (fun l k => W5 (ix2 l k)) (fun k => b5 (ix2 0 k)) (fun k => a5 (ix2 0 k)) (c5 (ix2 0 0)) j

/-- The whole result array: at every index the mixture of its row. -/
def arrMix (X : FVec Ideal S50000x64 .f32) (AX : FVec Ideal S50000x64 .f32) (AAX : FVec Ideal S50000x64 .f32) (W1 : FVec Ideal S64x64 .f32) (b1 : FVec Ideal S1x64 .f32) (a1 : FVec Ideal S1x64 .f32) (c1 : FVec Ideal S1x1 .f32) (W2 : FVec Ideal S64x64 .f32) (b2 : FVec Ideal S1x64 .f32) (a2 : FVec Ideal S1x64 .f32) (c2 : FVec Ideal S1x1 .f32) (W3 : FVec Ideal S64x64 .f32) (b3 : FVec Ideal S1x64 .f32) (a3 : FVec Ideal S1x64 .f32) (c3 : FVec Ideal S1x1 .f32) (W4 : FVec Ideal S64x64 .f32) (b4 : FVec Ideal S1x64 .f32) (a4 : FVec Ideal S1x64 .f32) (c4 : FVec Ideal S1x1 .f32) (W5 : FVec Ideal S64x64 .f32) (b5 : FVec Ideal S1x64 .f32) (a5 : FVec Ideal S1x64 .f32) (c5 : FVec Ideal S1x1 .f32) : S50000x64.Idx → EReal :=
  fun i => rowMix X AX AAX W1 b1 a1 c1 W2 b2 a2 c2 W3 b3 a3 c3 W4 b4 a4 c4 W5 b5 a5 c5 (i 0) (i 1)

theorem hz : (![0, 0] : Fin 2 → Nat) = fun _ => 0 := funext fun a => by fin_cases a <;> rfl

/-- The row windows and the output window sit at block `(t, 0)` at point `t` (decided over the ten points). -/
theorem rows_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_23.index t (0 : Fin 2) = t.val ∧ win0_23.index t (1 : Fin 2) = 0 :=
  (by decide +kernel : ∀ t : Fin grid0.N, _)

/-- The weight windows sit at block `(0, 0)` at every point (decided over the ten points). -/
theorem fixed_idx : ∀ t : Fin cfg0.N,
    (∀ a : Fin 2, win0_3.index t a = 0)
    ∧ (∀ a : Fin 2, win0_4.index t a = 0)
    ∧ (∀ a : Fin 2, win0_5.index t a = 0)
    ∧ (∀ a : Fin 2, win0_6.index t a = 0)
    ∧ (∀ a : Fin 2, win0_7.index t a = 0)
    ∧ (∀ a : Fin 2, win0_8.index t a = 0)
    ∧ (∀ a : Fin 2, win0_9.index t a = 0)
    ∧ (∀ a : Fin 2, win0_10.index t a = 0)
    ∧ (∀ a : Fin 2, win0_11.index t a = 0)
    ∧ (∀ a : Fin 2, win0_12.index t a = 0)
    ∧ (∀ a : Fin 2, win0_13.index t a = 0)
    ∧ (∀ a : Fin 2, win0_14.index t a = 0)
    ∧ (∀ a : Fin 2, win0_15.index t a = 0)
    ∧ (∀ a : Fin 2, win0_16.index t a = 0)
    ∧ (∀ a : Fin 2, win0_17.index t a = 0)
    ∧ (∀ a : Fin 2, win0_18.index t a = 0)
    ∧ (∀ a : Fin 2, win0_19.index t a = 0)
    ∧ (∀ a : Fin 2, win0_20.index t a = 0)
    ∧ (∀ a : Fin 2, win0_21.index t a = 0)
    ∧ (∀ a : Fin 2, win0_22.index t a = 0) :=
  (by decide +kernel : ∀ t : Fin grid0.N, _)

/-- The whole result array at `(R, q)` is the mixture of row `R`. -/
theorem arrMix_at (X : FVec Ideal S50000x64 .f32) (AX : FVec Ideal S50000x64 .f32) (AAX : FVec Ideal S50000x64 .f32) (W1 : FVec Ideal S64x64 .f32) (b1 : FVec Ideal S1x64 .f32) (a1 : FVec Ideal S1x64 .f32) (c1 : FVec Ideal S1x1 .f32) (W2 : FVec Ideal S64x64 .f32) (b2 : FVec Ideal S1x64 .f32) (a2 : FVec Ideal S1x64 .f32) (c2 : FVec Ideal S1x1 .f32) (W3 : FVec Ideal S64x64 .f32) (b3 : FVec Ideal S1x64 .f32) (a3 : FVec Ideal S1x64 .f32) (c3 : FVec Ideal S1x1 .f32) (W4 : FVec Ideal S64x64 .f32) (b4 : FVec Ideal S1x64 .f32) (a4 : FVec Ideal S1x64 .f32) (c4 : FVec Ideal S1x1 .f32) (W5 : FVec Ideal S64x64 .f32) (b5 : FVec Ideal S1x64 .f32) (a5 : FVec Ideal S1x64 .f32) (c5 : FVec Ideal S1x1 .f32) (R : Fin 50000) (q : Fin 64) :
    arrMix X AX AAX W1 b1 a1 c1 W2 b2 a2 c2 W3 b3 a3 c3 W4 b4 a4 c4 W5 b5 a5 c5 (ix2 R q) = rowMix X AX AAX W1 b1 a1 c1 W2 b2 a2 c2 W3 b3 a3 c3 W4 b4 a4 c4 W5 b5 a5 c5 R q := rfl

/-- What a point writes back of a block of 5000 rows is the block itself (the blocks are never clipped). -/
theorem cut_at (X : S5000x64.Idx → EReal) (t : Fin cfg0.N) (p : Fin 5000) (q : Fin 64) :
    (cfg0.win 23).cut (grid0.coords t) X (ix2 p q) = X (ix2 p q) := rfl

/-- Block `t` of an array, read at a block index, is the array at the index the block's view embeds it to. -/
theorem read_at (G : S50000x64.Idx → EReal) (t : Fin cfg0.N) (y : S5000x64.Idx) :
    ((cfg0.win 23).blk t).view.read (Elt Ideal) G y = G (((cfg0.win 23).blk t).view.emb y) := rfl

/-- Entry `(p, q)` of the output's block at point `t` is entry `(5000·t + p, q)` of the array. -/
theorem emb_out (t : Fin cfg0.N) (p : Fin 5000) (q : Fin 64) (R : Fin 50000) (hR : R.val = t.val * 5000 + p.val) :
    ((cfg0.win 23).blk t).view.emb (ix2 p q) = ix2 R q := by
  obtain ⟨_, _, _, _, _, _, o0, o1⟩ := rows_idx t
  funext a; apply Fin.ext
  match a with
  | ⟨0, _⟩ => show win0_23.index t (0 : Fin 2) * 5000 + 1 * p.val = R.val; rw [o0, hR]; omega
  | ⟨1, _⟩ => show win0_23.index t (1 : Fin 2) * 64 + 1 * q.val = q.val; rw [o1]; omega

/-- Window 0's block at point `t`, entry `(p, l)`, is entry `(5000·t + p, l)` of its array as the region finds it. -/
theorem read_0 (c : Dev nD) (t : Fin cfg0.N) (p : Fin 5000) (l : Fin 64) (R : Fin 50000) (hR : R.val = t.val * 5000 + p.val) :
    iblk m c 0 t (ix2 p l) = V m c main_arg0 (ix2 R l) := by
  have e : ((cfg0.win 0).blk t).view.emb (ix2 p l) = ix2 R l := by
    obtain ⟨a0, a1, _⟩ := rows_idx t
    funext a; apply Fin.ext
    match a with
    | ⟨0, _⟩ => show win0_0.index t (0 : Fin 2) * 5000 + 1 * p.val = R.val; rw [a0, hR]; omega
    | ⟨1, _⟩ => show win0_0.index t (1 : Fin 2) * 64 + 1 * l.val = l.val; rw [a1]; omega
  have rd : ∀ G : S50000x64.Idx → EReal, ((cfg0.win 0).blk t).view.read (Elt Ideal) G (ix2 p l)
      = G (((cfg0.win 0).blk t).view.emb (ix2 p l)) := fun G => rfl
  unfold iblk
  rw [rd, e]

/-- Window 1's block at point `t`, entry `(p, l)`, is entry `(5000·t + p, l)` of its array as the region finds it. -/
theorem read_1 (c : Dev nD) (t : Fin cfg0.N) (p : Fin 5000) (l : Fin 64) (R : Fin 50000) (hR : R.val = t.val * 5000 + p.val) :
    iblk m c 1 t (ix2 p l) = V m c main_v24 (ix2 R l) := by
  have e : ((cfg0.win 1).blk t).view.emb (ix2 p l) = ix2 R l := by
    obtain ⟨_, _, a0, a1, _⟩ := rows_idx t
    funext a; apply Fin.ext
    match a with
    | ⟨0, _⟩ => show win0_1.index t (0 : Fin 2) * 5000 + 1 * p.val = R.val; rw [a0, hR]; omega
    | ⟨1, _⟩ => show win0_1.index t (1 : Fin 2) * 64 + 1 * l.val = l.val; rw [a1]; omega
  have rd : ∀ G : S50000x64.Idx → EReal, ((cfg0.win 1).blk t).view.read (Elt Ideal) G (ix2 p l)
      = G (((cfg0.win 1).blk t).view.emb (ix2 p l)) := fun G => rfl
  unfold iblk
  rw [rd, e]

/-- Window 2's block at point `t`, entry `(p, l)`, is entry `(5000·t + p, l)` of its array as the region finds it. -/
theorem read_2 (c : Dev nD) (t : Fin cfg0.N) (p : Fin 5000) (l : Fin 64) (R : Fin 50000) (hR : R.val = t.val * 5000 + p.val) :
    iblk m c 2 t (ix2 p l) = V m c main_v37 (ix2 R l) := by
  have e : ((cfg0.win 2).blk t).view.emb (ix2 p l) = ix2 R l := by
    obtain ⟨_, _, _, _, a0, a1, _⟩ := rows_idx t
    funext a; apply Fin.ext
    match a with
    | ⟨0, _⟩ => show win0_2.index t (0 : Fin 2) * 5000 + 1 * p.val = R.val; rw [a0, hR]; omega
    | ⟨1, _⟩ => show win0_2.index t (1 : Fin 2) * 64 + 1 * l.val = l.val; rw [a1]; omega
  have rd : ∀ G : S50000x64.Idx → EReal, ((cfg0.win 2).blk t).view.read (Elt Ideal) G (ix2 p l)
      = G (((cfg0.win 2).blk t).view.emb (ix2 p l)) := fun G => rfl
  unfold iblk
  rw [rd, e]

/-- Window 3 holds its whole array at every point. -/
theorem read_3 (c : Dev nD) (t : Fin cfg0.N) (l k : Fin 64) :
    iblk m c 3 t (ix2 l k) = V m c main_arg2 (ix2 l k) := by
  have e : ((cfg0.win 3).blk t).view.emb (ix2 l k) = (ix2 l k) := by
    have fx := (fixed_idx t).1
    funext a; apply Fin.ext
    match a with
    | ⟨0, _⟩ => show win0_3.index t (0 : Fin 2) * 64 + 1 * l.val = l.val; rw [fx 0]; try omega
    | ⟨1, _⟩ => show win0_3.index t (1 : Fin 2) * 64 + 1 * k.val = k.val; rw [fx 1]; try omega
  have rd : ∀ G : S64x64.Idx → EReal, ((cfg0.win 3).blk t).view.read (Elt Ideal) G (ix2 l k)
      = G (((cfg0.win 3).blk t).view.emb (ix2 l k)) := fun G => rfl
  unfold iblk
  rw [rd, e]

/-- Window 4 holds its whole array at every point. -/
theorem read_4 (c : Dev nD) (t : Fin cfg0.N) (k : Fin 64) :
    iblk m c 4 t (ix2 0 k) = V m c main_v38 (ix2 0 k) := by
  have e : ((cfg0.win 4).blk t).view.emb (ix2 0 k) = (ix2 0 k) := by
    have fx := (fixed_idx t).2.1
    funext a; apply Fin.ext
    match a with
    | ⟨0, _⟩ => show win0_4.index t (0 : Fin 2) * 1 + 1 * 0 = 0; rw [fx 0]; try omega
    | ⟨1, _⟩ => show win0_4.index t (1 : Fin 2) * 64 + 1 * k.val = k.val; rw [fx 1]; try omega
  have rd : ∀ G : S1x64.Idx → EReal, ((cfg0.win 4).blk t).view.read (Elt Ideal) G (ix2 0 k)
      = G (((cfg0.win 4).blk t).view.emb (ix2 0 k)) := fun G => rfl
  unfold iblk
  rw [rd, e]

/-- Window 5 holds its whole array at every point. -/
theorem read_5 (c : Dev nD) (t : Fin cfg0.N) (k : Fin 64) :
    iblk m c 5 t (ix2 0 k) = V m c main_v48 (ix2 0 k) := by
  have e : ((cfg0.win 5).blk t).view.emb (ix2 0 k) = (ix2 0 k) := by
    have fx := (fixed_idx t).2.2.1
    funext a; apply Fin.ext
    match a with
    | ⟨0, _⟩ => show win0_5.index t (0 : Fin 2) * 1 + 1 * 0 = 0; rw [fx 0]; try omega
    | ⟨1, _⟩ => show win0_5.index t (1 : Fin 2) * 64 + 1 * k.val = k.val; rw [fx 1]; try omega
  have rd : ∀ G : S1x64.Idx → EReal, ((cfg0.win 5).blk t).view.read (Elt Ideal) G (ix2 0 k)
      = G (((cfg0.win 5).blk t).view.emb (ix2 0 k)) := fun G => rfl
  unfold iblk
  rw [rd, e]

/-- Window 6 holds its whole array at every point. -/
theorem read_6 (c : Dev nD) (t : Fin cfg0.N) :
    iblk m c 6 t (ix2 0 0) = V m c main_v43 (ix2 0 0) := by
  have e : ((cfg0.win 6).blk t).view.emb (ix2 0 0) = (ix2 0 0) := by
    have fx := (fixed_idx t).2.2.2.1
    funext a; apply Fin.ext
    match a with
    | ⟨0, _⟩ => show win0_6.index t (0 : Fin 2) * 1 + 1 * 0 = 0; rw [fx 0]; try omega
    | ⟨1, _⟩ => show win0_6.index t (1 : Fin 2) * 1 + 1 * 0 = 0; rw [fx 1]; try omega
  have rd : ∀ G : S1x1.Idx → EReal, ((cfg0.win 6).blk t).view.read (Elt Ideal) G (ix2 0 0)
      = G (((cfg0.win 6).blk t).view.emb (ix2 0 0)) := fun G => rfl
  unfold iblk
  rw [rd, e]

/-- Window 7 holds its whole array at every point. -/
theorem read_7 (c : Dev nD) (t : Fin cfg0.N) (l k : Fin 64) :
    iblk m c 7 t (ix2 l k) = V m c main_arg4 (ix2 l k) := by
  have e : ((cfg0.win 7).blk t).view.emb (ix2 l k) = (ix2 l k) := by
    have fx := (fixed_idx t).2.2.2.2.1
    funext a; apply Fin.ext
    match a with
    | ⟨0, _⟩ => show win0_7.index t (0 : Fin 2) * 64 + 1 * l.val = l.val; rw [fx 0]; try omega
    | ⟨1, _⟩ => show win0_7.index t (1 : Fin 2) * 64 + 1 * k.val = k.val; rw [fx 1]; try omega
  have rd : ∀ G : S64x64.Idx → EReal, ((cfg0.win 7).blk t).view.read (Elt Ideal) G (ix2 l k)
      = G (((cfg0.win 7).blk t).view.emb (ix2 l k)) := fun G => rfl
  unfold iblk
  rw [rd, e]

/-- Window 8 holds its whole array at every point. -/
theorem read_8 (c : Dev nD) (t : Fin cfg0.N) (k : Fin 64) :
    iblk m c 8 t (ix2 0 k) = V m c main_v39 (ix2 0 k) := by
  have e : ((cfg0.win 8).blk t).view.emb (ix2 0 k) = (ix2 0 k) := by
    have fx := (fixed_idx t).2.2.2.2.2.1
    funext a; apply Fin.ext
    match a with
    | ⟨0, _⟩ => show win0_8.index t (0 : Fin 2) * 1 + 1 * 0 = 0; rw [fx 0]; try omega
    | ⟨1, _⟩ => show win0_8.index t (1 : Fin 2) * 64 + 1 * k.val = k.val; rw [fx 1]; try omega
  have rd : ∀ G : S1x64.Idx → EReal, ((cfg0.win 8).blk t).view.read (Elt Ideal) G (ix2 0 k)
      = G (((cfg0.win 8).blk t).view.emb (ix2 0 k)) := fun G => rfl
  unfold iblk
  rw [rd, e]

/-- Window 9 holds its whole array at every point. -/
theorem read_9 (c : Dev nD) (t : Fin cfg0.N) (k : Fin 64) :
    iblk m c 9 t (ix2 0 k) = V m c main_v49 (ix2 0 k) := by
  have e : ((cfg0.win 9).blk t).view.emb (ix2 0 k) = (ix2 0 k) := by
    have fx := (fixed_idx t).2.2.2.2.2.2.1
    funext a; apply Fin.ext
    match a with
    | ⟨0, _⟩ => show win0_9.index t (0 : Fin 2) * 1 + 1 * 0 = 0; rw [fx 0]; try omega
    | ⟨1, _⟩ => show win0_9.index t (1 : Fin 2) * 64 + 1 * k.val = k.val; rw [fx 1]; try omega
  have rd : ∀ G : S1x64.Idx → EReal, ((cfg0.win 9).blk t).view.read (Elt Ideal) G (ix2 0 k)
      = G (((cfg0.win 9).blk t).view.emb (ix2 0 k)) := fun G => rfl
  unfold iblk
  rw [rd, e]

/-- Window 10 holds its whole array at every point. -/
theorem read_10 (c : Dev nD) (t : Fin cfg0.N) :
    iblk m c 10 t (ix2 0 0) = V m c main_v44 (ix2 0 0) := by
  have e : ((cfg0.win 10).blk t).view.emb (ix2 0 0) = (ix2 0 0) := by
    have fx := (fixed_idx t).2.2.2.2.2.2.2.1
    funext a; apply Fin.ext
    match a with
    | ⟨0, _⟩ => show win0_10.index t (0 : Fin 2) * 1 + 1 * 0 = 0; rw [fx 0]; try omega
    | ⟨1, _⟩ => show win0_10.index t (1 : Fin 2) * 1 + 1 * 0 = 0; rw [fx 1]; try omega
  have rd : ∀ G : S1x1.Idx → EReal, ((cfg0.win 10).blk t).view.read (Elt Ideal) G (ix2 0 0)
      = G (((cfg0.win 10).blk t).view.emb (ix2 0 0)) := fun G => rfl
  unfold iblk
  rw [rd, e]

/-- Window 11 holds its whole array at every point. -/
theorem read_11 (c : Dev nD) (t : Fin cfg0.N) (l k : Fin 64) :
    iblk m c 11 t (ix2 l k) = V m c main_arg6 (ix2 l k) := by
  have e : ((cfg0.win 11).blk t).view.emb (ix2 l k) = (ix2 l k) := by
    have fx := (fixed_idx t).2.2.2.2.2.2.2.2.1
    funext a; apply Fin.ext
    match a with
    | ⟨0, _⟩ => show win0_11.index t (0 : Fin 2) * 64 + 1 * l.val = l.val; rw [fx 0]; try omega
    | ⟨1, _⟩ => show win0_11.index t (1 : Fin 2) * 64 + 1 * k.val = k.val; rw [fx 1]; try omega
  have rd : ∀ G : S64x64.Idx → EReal, ((cfg0.win 11).blk t).view.read (Elt Ideal) G (ix2 l k)
      = G (((cfg0.win 11).blk t).view.emb (ix2 l k)) := fun G => rfl
  unfold iblk
  rw [rd, e]

/-- Window 12 holds its whole array at every point. -/
theorem read_12 (c : Dev nD) (t : Fin cfg0.N) (k : Fin 64) :
    iblk m c 12 t (ix2 0 k) = V m c main_v40 (ix2 0 k) := by
  have e : ((cfg0.win 12).blk t).view.emb (ix2 0 k) = (ix2 0 k) := by
    have fx := (fixed_idx t).2.2.2.2.2.2.2.2.2.1
    funext a; apply Fin.ext
    match a with
    | ⟨0, _⟩ => show win0_12.index t (0 : Fin 2) * 1 + 1 * 0 = 0; rw [fx 0]; try omega
    | ⟨1, _⟩ => show win0_12.index t (1 : Fin 2) * 64 + 1 * k.val = k.val; rw [fx 1]; try omega
  have rd : ∀ G : S1x64.Idx → EReal, ((cfg0.win 12).blk t).view.read (Elt Ideal) G (ix2 0 k)
      = G (((cfg0.win 12).blk t).view.emb (ix2 0 k)) := fun G => rfl
  unfold iblk
  rw [rd, e]

/-- Window 13 holds its whole array at every point. -/
theorem read_13 (c : Dev nD) (t : Fin cfg0.N) (k : Fin 64) :
    iblk m c 13 t (ix2 0 k) = V m c main_v50 (ix2 0 k) := by
  have e : ((cfg0.win 13).blk t).view.emb (ix2 0 k) = (ix2 0 k) := by
    have fx := (fixed_idx t).2.2.2.2.2.2.2.2.2.2.1
    funext a; apply Fin.ext
    match a with
    | ⟨0, _⟩ => show win0_13.index t (0 : Fin 2) * 1 + 1 * 0 = 0; rw [fx 0]; try omega
    | ⟨1, _⟩ => show win0_13.index t (1 : Fin 2) * 64 + 1 * k.val = k.val; rw [fx 1]; try omega
  have rd : ∀ G : S1x64.Idx → EReal, ((cfg0.win 13).blk t).view.read (Elt Ideal) G (ix2 0 k)
      = G (((cfg0.win 13).blk t).view.emb (ix2 0 k)) := fun G => rfl
  unfold iblk
  rw [rd, e]

/-- Window 14 holds its whole array at every point. -/
theorem read_14 (c : Dev nD) (t : Fin cfg0.N) :
    iblk m c 14 t (ix2 0 0) = V m c main_v45 (ix2 0 0) := by
  have e : ((cfg0.win 14).blk t).view.emb (ix2 0 0) = (ix2 0 0) := by
    have fx := (fixed_idx t).2.2.2.2.2.2.2.2.2.2.2.1
    funext a; apply Fin.ext
    match a with
    | ⟨0, _⟩ => show win0_14.index t (0 : Fin 2) * 1 + 1 * 0 = 0; rw [fx 0]; try omega
    | ⟨1, _⟩ => show win0_14.index t (1 : Fin 2) * 1 + 1 * 0 = 0; rw [fx 1]; try omega
  have rd : ∀ G : S1x1.Idx → EReal, ((cfg0.win 14).blk t).view.read (Elt Ideal) G (ix2 0 0)
      = G (((cfg0.win 14).blk t).view.emb (ix2 0 0)) := fun G => rfl
  unfold iblk
  rw [rd, e]

/-- Window 15 holds its whole array at every point. -/
theorem read_15 (c : Dev nD) (t : Fin cfg0.N) (l k : Fin 64) :
    iblk m c 15 t (ix2 l k) = V m c main_arg8 (ix2 l k) := by
  have e : ((cfg0.win 15).blk t).view.emb (ix2 l k) = (ix2 l k) := by
    have fx := (fixed_idx t).2.2.2.2.2.2.2.2.2.2.2.2.1
    funext a; apply Fin.ext
    match a with
    | ⟨0, _⟩ => show win0_15.index t (0 : Fin 2) * 64 + 1 * l.val = l.val; rw [fx 0]; try omega
    | ⟨1, _⟩ => show win0_15.index t (1 : Fin 2) * 64 + 1 * k.val = k.val; rw [fx 1]; try omega
  have rd : ∀ G : S64x64.Idx → EReal, ((cfg0.win 15).blk t).view.read (Elt Ideal) G (ix2 l k)
      = G (((cfg0.win 15).blk t).view.emb (ix2 l k)) := fun G => rfl
  unfold iblk
  rw [rd, e]

/-- Window 16 holds its whole array at every point. -/
theorem read_16 (c : Dev nD) (t : Fin cfg0.N) (k : Fin 64) :
    iblk m c 16 t (ix2 0 k) = V m c main_v41 (ix2 0 k) := by
  have e : ((cfg0.win 16).blk t).view.emb (ix2 0 k) = (ix2 0 k) := by
    have fx := (fixed_idx t).2.2.2.2.2.2.2.2.2.2.2.2.2.1
    funext a; apply Fin.ext
    match a with
    | ⟨0, _⟩ => show win0_16.index t (0 : Fin 2) * 1 + 1 * 0 = 0; rw [fx 0]; try omega
    | ⟨1, _⟩ => show win0_16.index t (1 : Fin 2) * 64 + 1 * k.val = k.val; rw [fx 1]; try omega
  have rd : ∀ G : S1x64.Idx → EReal, ((cfg0.win 16).blk t).view.read (Elt Ideal) G (ix2 0 k)
      = G (((cfg0.win 16).blk t).view.emb (ix2 0 k)) := fun G => rfl
  unfold iblk
  rw [rd, e]

/-- Window 17 holds its whole array at every point. -/
theorem read_17 (c : Dev nD) (t : Fin cfg0.N) (k : Fin 64) :
    iblk m c 17 t (ix2 0 k) = V m c main_v51 (ix2 0 k) := by
  have e : ((cfg0.win 17).blk t).view.emb (ix2 0 k) = (ix2 0 k) := by
    have fx := (fixed_idx t).2.2.2.2.2.2.2.2.2.2.2.2.2.2.1
    funext a; apply Fin.ext
    match a with
    | ⟨0, _⟩ => show win0_17.index t (0 : Fin 2) * 1 + 1 * 0 = 0; rw [fx 0]; try omega
    | ⟨1, _⟩ => show win0_17.index t (1 : Fin 2) * 64 + 1 * k.val = k.val; rw [fx 1]; try omega
  have rd : ∀ G : S1x64.Idx → EReal, ((cfg0.win 17).blk t).view.read (Elt Ideal) G (ix2 0 k)
      = G (((cfg0.win 17).blk t).view.emb (ix2 0 k)) := fun G => rfl
  unfold iblk
  rw [rd, e]

/-- Window 18 holds its whole array at every point. -/
theorem read_18 (c : Dev nD) (t : Fin cfg0.N) :
    iblk m c 18 t (ix2 0 0) = V m c main_v46 (ix2 0 0) := by
  have e : ((cfg0.win 18).blk t).view.emb (ix2 0 0) = (ix2 0 0) := by
    have fx := (fixed_idx t).2.2.2.2.2.2.2.2.2.2.2.2.2.2.2.1
    funext a; apply Fin.ext
    match a with
    | ⟨0, _⟩ => show win0_18.index t (0 : Fin 2) * 1 + 1 * 0 = 0; rw [fx 0]; try omega
    | ⟨1, _⟩ => show win0_18.index t (1 : Fin 2) * 1 + 1 * 0 = 0; rw [fx 1]; try omega
  have rd : ∀ G : S1x1.Idx → EReal, ((cfg0.win 18).blk t).view.read (Elt Ideal) G (ix2 0 0)
      = G (((cfg0.win 18).blk t).view.emb (ix2 0 0)) := fun G => rfl
  unfold iblk
  rw [rd, e]

/-- Window 19 holds its whole array at every point. -/
theorem read_19 (c : Dev nD) (t : Fin cfg0.N) (l k : Fin 64) :
    iblk m c 19 t (ix2 l k) = V m c main_arg10 (ix2 l k) := by
  have e : ((cfg0.win 19).blk t).view.emb (ix2 l k) = (ix2 l k) := by
    have fx := (fixed_idx t).2.2.2.2.2.2.2.2.2.2.2.2.2.2.2.2.1
    funext a; apply Fin.ext
    match a with
    | ⟨0, _⟩ => show win0_19.index t (0 : Fin 2) * 64 + 1 * l.val = l.val; rw [fx 0]; try omega
    | ⟨1, _⟩ => show win0_19.index t (1 : Fin 2) * 64 + 1 * k.val = k.val; rw [fx 1]; try omega
  have rd : ∀ G : S64x64.Idx → EReal, ((cfg0.win 19).blk t).view.read (Elt Ideal) G (ix2 l k)
      = G (((cfg0.win 19).blk t).view.emb (ix2 l k)) := fun G => rfl
  unfold iblk
  rw [rd, e]

/-- Window 20 holds its whole array at every point. -/
theorem read_20 (c : Dev nD) (t : Fin cfg0.N) (k : Fin 64) :
    iblk m c 20 t (ix2 0 k) = V m c main_v42 (ix2 0 k) := by
  have e : ((cfg0.win 20).blk t).view.emb (ix2 0 k) = (ix2 0 k) := by
    have fx := (fixed_idx t).2.2.2.2.2.2.2.2.2.2.2.2.2.2.2.2.2.1
    funext a; apply Fin.ext
    match a with
    | ⟨0, _⟩ => show win0_20.index t (0 : Fin 2) * 1 + 1 * 0 = 0; rw [fx 0]; try omega
    | ⟨1, _⟩ => show win0_20.index t (1 : Fin 2) * 64 + 1 * k.val = k.val; rw [fx 1]; try omega
  have rd : ∀ G : S1x64.Idx → EReal, ((cfg0.win 20).blk t).view.read (Elt Ideal) G (ix2 0 k)
      = G (((cfg0.win 20).blk t).view.emb (ix2 0 k)) := fun G => rfl
  unfold iblk
  rw [rd, e]

/-- Window 21 holds its whole array at every point. -/
theorem read_21 (c : Dev nD) (t : Fin cfg0.N) (k : Fin 64) :
    iblk m c 21 t (ix2 0 k) = V m c main_v52 (ix2 0 k) := by
  have e : ((cfg0.win 21).blk t).view.emb (ix2 0 k) = (ix2 0 k) := by
    have fx := (fixed_idx t).2.2.2.2.2.2.2.2.2.2.2.2.2.2.2.2.2.2.1
    funext a; apply Fin.ext
    match a with
    | ⟨0, _⟩ => show win0_21.index t (0 : Fin 2) * 1 + 1 * 0 = 0; rw [fx 0]; try omega
    | ⟨1, _⟩ => show win0_21.index t (1 : Fin 2) * 64 + 1 * k.val = k.val; rw [fx 1]; try omega
  have rd : ∀ G : S1x64.Idx → EReal, ((cfg0.win 21).blk t).view.read (Elt Ideal) G (ix2 0 k)
      = G (((cfg0.win 21).blk t).view.emb (ix2 0 k)) := fun G => rfl
  unfold iblk
  rw [rd, e]

/-- Window 22 holds its whole array at every point. -/
theorem read_22 (c : Dev nD) (t : Fin cfg0.N) :
    iblk m c 22 t (ix2 0 0) = V m c main_v47 (ix2 0 0) := by
  have e : ((cfg0.win 22).blk t).view.emb (ix2 0 0) = (ix2 0 0) := by
    have fx := (fixed_idx t).2.2.2.2.2.2.2.2.2.2.2.2.2.2.2.2.2.2.2
    funext a; apply Fin.ext
    match a with
    | ⟨0, _⟩ => show win0_22.index t (0 : Fin 2) * 1 + 1 * 0 = 0; rw [fx 0]; try omega
    | ⟨1, _⟩ => show win0_22.index t (1 : Fin 2) * 1 + 1 * 0 = 0; rw [fx 1]; try omega
  have rd : ∀ G : S1x1.Idx → EReal, ((cfg0.win 22).blk t).view.read (Elt Ideal) G (ix2 0 0)
      = G (((cfg0.win 22).blk t).view.emb (ix2 0 0)) := fun G => rfl
  unfold iblk
  rw [rd, e]

set_option maxHeartbeats 4000000 in
/-- WHAT POINT `t` WRITES BACK is block `t` of the mixture of the arrays as the region finds them. -/
theorem flushed_eq (c : Dev nD) (t : Fin cfg0.N) :
    (dats m 0 c).flushed 23 t = ((cfg0.win 23).blk t).view.read (Elt Ideal)
      (arrMix (V m c main_arg0) (V m c main_v24) (V m c main_v37) (V m c main_arg2) (V m c main_v38) (V m c main_v48) (V m c main_v43) (V m c main_arg4) (V m c main_v39) (V m c main_v49) (V m c main_v44) (V m c main_arg6) (V m c main_v40) (V m c main_v50) (V m c main_v45) (V m c main_arg8) (V m c main_v41) (V m c main_v51) (V m c main_v46) (V m c main_arg10) (V m c main_v42) (V m c main_v52) (V m c main_v47)) := by
  show (cfg0.win 23).cut (grid0.coords t) ((dats m 0 c).after 23 t) = _
  rw [after0_23]
  unfold out0_23
  rw [View.canon_unit_zero hz]
  simp only [View.ld_unit_zero (S := S5000x64) hz, View.ld_unit_zero (S := S64x64) hz, View.ld_unit_zero (S := S1x64) hz,
    View.ld_unit_zero (S := S1x1) hz]
  funext y
  obtain ⟨p, q, rfl⟩ : ∃ (p : Fin 5000) (q : Fin 64), y = ix2 p q := ⟨y 0, y 1, eq_ix2 y⟩
  have hp : p.val < 5000 := p.isLt
  have ht : t.val < 10 := by have h := t.isLt; have e : cfg0.N = 10 := N_0; omega
  let R : Fin 50000 := ⟨t.val * 5000 + p.val, by omega⟩
  have e0 : ∀ l : Fin 64, iblk m c 0 t (ix2 p l) = V m c main_arg0 (ix2 R l) := fun l => read_0 m c t p l R rfl
  have e1 : ∀ l : Fin 64, iblk m c 1 t (ix2 p l) = V m c main_v24 (ix2 R l) := fun l => read_1 m c t p l R rfl
  have e2 : ∀ l : Fin 64, iblk m c 2 t (ix2 p l) = V m c main_v37 (ix2 R l) := fun l => read_2 m c t p l R rfl
  have e3 : ∀ l k : Fin 64, iblk m c 3 t (ix2 l k) = V m c main_arg2 (ix2 l k) := fun l k => read_3 m c t l k
  have e4 : ∀ k : Fin 64, iblk m c 4 t (ix2 0 k) = V m c main_v38 (ix2 0 k) := fun k => read_4 m c t k
  have e5 : ∀ k : Fin 64, iblk m c 5 t (ix2 0 k) = V m c main_v48 (ix2 0 k) := fun k => read_5 m c t k
  have e6 : iblk m c 6 t (ix2 0 0) = V m c main_v43 (ix2 0 0) := read_6 m c t
  have e7 : ∀ l k : Fin 64, iblk m c 7 t (ix2 l k) = V m c main_arg4 (ix2 l k) := fun l k => read_7 m c t l k
  have e8 : ∀ k : Fin 64, iblk m c 8 t (ix2 0 k) = V m c main_v39 (ix2 0 k) := fun k => read_8 m c t k
  have e9 : ∀ k : Fin 64, iblk m c 9 t (ix2 0 k) = V m c main_v49 (ix2 0 k) := fun k => read_9 m c t k
  have e10 : iblk m c 10 t (ix2 0 0) = V m c main_v44 (ix2 0 0) := read_10 m c t
  have e11 : ∀ l k : Fin 64, iblk m c 11 t (ix2 l k) = V m c main_arg6 (ix2 l k) := fun l k => read_11 m c t l k
  have e12 : ∀ k : Fin 64, iblk m c 12 t (ix2 0 k) = V m c main_v40 (ix2 0 k) := fun k => read_12 m c t k
  have e13 : ∀ k : Fin 64, iblk m c 13 t (ix2 0 k) = V m c main_v50 (ix2 0 k) := fun k => read_13 m c t k
  have e14 : iblk m c 14 t (ix2 0 0) = V m c main_v45 (ix2 0 0) := read_14 m c t
  have e15 : ∀ l k : Fin 64, iblk m c 15 t (ix2 l k) = V m c main_arg8 (ix2 l k) := fun l k => read_15 m c t l k
  have e16 : ∀ k : Fin 64, iblk m c 16 t (ix2 0 k) = V m c main_v41 (ix2 0 k) := fun k => read_16 m c t k
  have e17 : ∀ k : Fin 64, iblk m c 17 t (ix2 0 k) = V m c main_v51 (ix2 0 k) := fun k => read_17 m c t k
  have e18 : iblk m c 18 t (ix2 0 0) = V m c main_v46 (ix2 0 0) := read_18 m c t
  have e19 : ∀ l k : Fin 64, iblk m c 19 t (ix2 l k) = V m c main_arg10 (ix2 l k) := fun l k => read_19 m c t l k
  have e20 : ∀ k : Fin 64, iblk m c 20 t (ix2 0 k) = V m c main_v42 (ix2 0 k) := fun k => read_20 m c t k
  have e21 : ∀ k : Fin 64, iblk m c 21 t (ix2 0 k) = V m c main_v52 (ix2 0 k) := fun k => read_21 m c t k
  have e22 : iblk m c 22 t (ix2 0 0) = V m c main_v47 (ix2 0 0) := read_22 m c t
  rw [cut_at, read_at, payload_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) p q, emb_out t p q R rfl, arrMix_at]
  unfold rowMix
  simp only [e0, e1, e2, e3, e4, e5, e6, e7, e8, e9, e10, e11, e12, e13, e14, e15, e16, e17, e18, e19, e20, e21, e22]

/-- An index is in point `t`'s block of the result iff each coordinate is in the block's range on its axis. -/
theorem mem_blk (t : Fin cfg0.N) (i : S50000x64.Idx) :
    i ∈ ((cfg0.win 23).blk t).view.set ↔ ∀ a : Fin 2, win0_23.index t a * S5000x64.size a ≤ (i a).val
      ∧ (i a).val < win0_23.index t a * S5000x64.size a + S5000x64.size a := by
  show i ∈ ((View.whole main_v53).slice (win0_23.rect t)).set ↔ _
  rw [View.set_slice_whole, Rect.mem_set_unit]
  exact Iff.rfl

/-- Row `r` of the result is written by point `r / 5000`: the ten blocks cover the array. -/
theorem cover (i : S50000x64.Idx) :
    ∃ t : Fin cfg0.N, (cfg0.win 23).flush t = true ∧ i ∈ ((cfg0.win 23).blk t).view.set := by
  have hi0 : (i 0).val < 50000 := (i 0).isLt
  have hi1 : (i 1).val < 64 := (i 1).isLt
  have hlt : (i 0).val / 5000 < cfg0.N := by rw [show cfg0.N = 10 from N_0]; omega
  obtain ⟨_, _, _, _, _, _, o0, o1⟩ := rows_idx ⟨(i 0).val / 5000, hlt⟩
  refine ⟨⟨(i 0).val / 5000, hlt⟩, flush0_23 _, ?_⟩
  rw [mem_blk]
  intro a
  match a with
  | ⟨0, _⟩ =>
    show win0_23.index ⟨(i 0).val / 5000, hlt⟩ (0 : Fin 2) * 5000 ≤ (i 0).val
      ∧ (i 0).val < win0_23.index ⟨(i 0).val / 5000, hlt⟩ (0 : Fin 2) * 5000 + 5000
    rw [o0]; show (i 0).val / 5000 * 5000 ≤ (i 0).val ∧ (i 0).val < (i 0).val / 5000 * 5000 + 5000; omega
  | ⟨1, _⟩ =>
    show win0_23.index ⟨(i 0).val / 5000, hlt⟩ (1 : Fin 2) * 64 ≤ (i 1).val
      ∧ (i 1).val < win0_23.index ⟨(i 0).val / 5000, hlt⟩ (1 : Fin 2) * 64 + 64
    rw [o1]; omega

/-- THE RESULT ARRAY after the run is the mixture of the arrays as the region finds them. -/
theorem final (c : Dev nD) :
    (dats m 0 c).arrAt 23 cfg0.N = arrMix (V m c main_arg0) (V m c main_v24) (V m c main_v37) (V m c main_arg2) (V m c main_v38) (V m c main_v48) (V m c main_v43) (V m c main_arg4) (V m c main_v39) (V m c main_v49) (V m c main_v44) (V m c main_arg6) (V m c main_v40) (V m c main_v50) (V m c main_v45) (V m c main_arg8) (V m c main_v41) (V m c main_v51) (V m c main_v46) (V m c main_arg10) (V m c main_v42) (V m c main_v52) (V m c main_v47) :=
  (dats m 0 c).arrAt_eq_of_cover 23 _ (fun t _ => flushed_eq m c t) cover

/-! ## The run -/

set_option maxHeartbeats 4000000 in
/-- Every weakly fair execution of the program terminates with the result array at the mixture of the arrays the region
    finds and every argument array as it was: the generated frame run, with the result array read by `final`, a staged
    argument read back through its window and the others left alone by the region. -/
theorem run : θ_run defs (onTc (τ := τ) (main (F := Ideal))) ⟨m, fun _ => 0, ρ⟩ fun r => ∀ c : Dev nD,
      r.2.mem ((c.tc : Thread nD τ).loc main_v53) = arrMix (V m c main_arg0) (V m c main_v24) (V m c main_v37) (V m c main_arg2) (V m c main_v38) (V m c main_v48) (V m c main_v43) (V m c main_arg4) (V m c main_v39) (V m c main_v49) (V m c main_v44) (V m c main_arg6) (V m c main_v40) (V m c main_v50) (V m c main_v45) (V m c main_arg8) (V m c main_v41) (V m c main_v51) (V m c main_v46) (V m c main_arg10) (V m c main_v42) (V m c main_v52) (V m c main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun r h c => ⟨((h c).1 23).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 7).trans (((dats m 0 c).arrAt_in 7 rfl _).trans ((A_eq m c 7).trans (V_main_arg4 m c))),
      ((h c).2 main_arg5 (Pipeline.mem_restRefs_of main_arg5 (by decide) (by decide))).trans (V_main_arg5 m c),
      ((h c).1 11).trans (((dats m 0 c).arrAt_in 11 rfl _).trans ((A_eq m c 11).trans (V_main_arg6 m c))),
      ((h c).2 main_arg7 (Pipeline.mem_restRefs_of main_arg7 (by decide) (by decide))).trans (V_main_arg7 m c),
      ((h c).1 15).trans (((dats m 0 c).arrAt_in 15 rfl _).trans ((A_eq m c 15).trans (V_main_arg8 m c))),
      ((h c).2 main_arg9 (Pipeline.mem_restRefs_of main_arg9 (by decide) (by decide))).trans (V_main_arg9 m c),
      ((h c).1 19).trans (((dats m 0 c).arrAt_in 19 rfl _).trans ((A_eq m c 19).trans (V_main_arg10 m c))),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩)
    (run_main m ρ)

end Cert.KernelIdeal.Mixture

end
-- ==== Proof.Entry.lean ====
/-
  What the region finds in its windows' arrays, in terms of the program's arguments.

  Before the region the program computes the two neighbourhood averages `Âx` and `Â²x` with the same operations, in
  the same order, as the reference does, so the arrays the region finds are the reference's own stages; it turns each
  64-vector of biases into a row, each one-element gate bias into a 1 × 1 array, and each 64 × 1 gate weight into a row
  by transposing it.  Read at an index these are the arguments' entries, and the mixture of the arrays the region finds
  is the mixture `Filter.nodeMix` of the arguments.
-/
import proofs.«102541_j52012053954565_2_alg».proof.Proof.Mixture
import proofs.«102541_j52012053954565_2_alg».proof.Proof.Gen.ReferenceIdeal.Read
import Idealize.ShloMosaic.Lib.StableHlo.Run

noncomputable section

namespace Cert.KernelIdeal.Entry

open Cert.KernelIdeal Cert.KernelIdeal.Gen Cert.KernelIdeal.GenP Cert.KernelIdeal.Mixture
open Cert.ReferenceIdeal.Read
open Idealize.ShloMosaic Idealize.ShloMosaic.TcCoe Idealize.SL.Sem Idealize.ShloMosaic.StableHlo Idealize.ShloMosaic.ValueIdx Cert.Filter

variable (m : (ℓ : Loc nD τ sig) → Buf (Elt Ideal) ℓ)

/-! ## The neighbourhood averages -/

set_option maxRecDepth 8192 in
set_option maxHeartbeats 40000000 in
/-- `Âx` as the region finds it is the reference's stage of the same arguments. -/
theorem found_ax (c : Dev nD) :
    (V m c main_v24 : S50000x64.Idx → EReal)
      = Cert.ReferenceIdeal.Read.val_main_v24 (F := Ideal) (m ((c.tc : Thread nD τ).loc main_arg0)) (m ((c.tc : Thread nD τ).loc main_arg1)) := by
  dsimp only [V, hostOps0]
  after_results_simp
  unfold val_main_v24 val_main_v23 val_main_v22 val_main_v21 val_main_v20 val_main_v19 val_main_cst_4 val_main_v18 val_main_v17 val_main_v16 val_main_v15 val_main_v14 val_main_c_3 val_main_v13 val_main_v12 val_main_c val_main_v11 val_main_v10 val_main_cst_2 val_main_v9 val_main_v8 val_main_cst_1 val_main_v7 val_main_v6 val_main_v5 val_main_cst_0 val_main_v4 val_main_cst val_main_v3 val_main_v2 val_main_v1 val_main_v0
  rfl

set_option maxRecDepth 8192 in
set_option maxHeartbeats 40000000 in
/-- `Â²x` as the region finds it is the reference's stage of the same arguments. -/
theorem found_aax (c : Dev nD) :
    (V m c main_v37 : S50000x64.Idx → EReal)
      = Cert.ReferenceIdeal.Read.val_main_v37 (F := Ideal) (m ((c.tc : Thread nD τ).loc main_arg0)) (m ((c.tc : Thread nD τ).loc main_arg1)) := by
  dsimp only [V, hostOps0]
  after_results_simp
  unfold val_main_v37 val_main_v36 val_main_v35 val_main_v34 val_main_v33 val_main_v32 val_main_cst_7 val_main_v31 val_main_v30 val_main_v29 val_main_v28 val_main_v27 val_main_c_6 val_main_v26 val_main_v25 val_main_c_5 val_main_v24 val_main_v23 val_main_v22 val_main_v21 val_main_v20 val_main_v19 val_main_cst_4 val_main_v18 val_main_v17 val_main_v16 val_main_v15 val_main_v14 val_main_c_3 val_main_v13 val_main_v12 val_main_c val_main_v11 val_main_v10 val_main_cst_2 val_main_v9 val_main_v8 val_main_cst_1 val_main_v7 val_main_v6 val_main_v5 val_main_cst_0 val_main_v4 val_main_cst val_main_v3 val_main_v2 val_main_v1 val_main_v0
  rfl

/-! ## The re-laid weights -/

set_option maxHeartbeats 8000000 in
/-- The high-pass filter's bias row: entry `(0, k)` is the bias vector's entry `k`. -/
theorem bias_hp (c : Dev nD) (k : Fin 64) : V m c main_v38 (ix2 0 k) = (m ((c.tc : Thread nD τ).loc main_arg3)) (ix1 k) := by
  have e : (V m c main_v38 : S1x64.Idx → EReal) = shapeCast _ (m ((c.tc : Thread nD τ).loc main_arg3)) Facts₀.shapeCasts_S64_S1x64 := by
    dsimp only [V, hostOps0]; after_results_simp <;> rfl
  rw [e]
  exact shapeCast_apply _ _ (ix2 0 k) (ix1 k)
    (by rw [Shape.rowMajor_val_one, Shape.rowMajor_val_two]; show k.val = 0 * 64 + k.val; omega)

set_option maxHeartbeats 8000000 in
/-- The high-pass filter's gate bias as a 1 × 1 array: its entry is the one-element vector's entry. -/
theorem gbias_hp (c : Dev nD) : V m c main_v43 (ix2 0 0) = (m ((c.tc : Thread nD τ).loc main_arg13)) (ix1 0) := by
  have e : (V m c main_v43 : S1x1.Idx → EReal) = shapeCast _ (m ((c.tc : Thread nD τ).loc main_arg13)) Facts₀.shapeCasts_S1_S1x1 := by
    dsimp only [V, hostOps0]; after_results_simp <;> rfl
  rw [e]
  exact shapeCast_apply _ _ (ix2 0 0) (ix1 0)
    (by rw [Shape.rowMajor_val_one, Shape.rowMajor_val_two]; show (0 : Nat) = 0 * 1 + 0; omega)

set_option maxHeartbeats 8000000 in
/-- The high-pass filter's gate weight laid as a row: entry `(0, k)` is the 64 × 1 weight's entry `(k, 0)`. -/
theorem gweight_hp (c : Dev nD) (k : Fin 64) : V m c main_v48 (ix2 0 k) = (m ((c.tc : Thread nD τ).loc main_arg12)) (ix2 k 0) := by
  have e : (V m c main_v48 : S1x64.Idx → EReal) = transpose S1x64 [1, 0] (m ((c.tc : Thread nD τ).loc main_arg12)) Facts₀.transposes_S64x1_S1x64_1_0 := by
    dsimp only [V, hostOps0]; after_results_simp <;> rfl
  rw [e]
  exact transpose_apply [1, 0] _ Facts₀.transposes_S64x1_S1x64_1_0 (ix2 0 k) (ix2 k 0) (fun b => match b with
    | ⟨0, _⟩ => rfl
    | ⟨1, _⟩ => rfl)

set_option maxHeartbeats 8000000 in
/-- The low-pass filter's bias row: entry `(0, k)` is the bias vector's entry `k`. -/
theorem bias_lp (c : Dev nD) (k : Fin 64) : V m c main_v39 (ix2 0 k) = (m ((c.tc : Thread nD τ).loc main_arg5)) (ix1 k) := by
  have e : (V m c main_v39 : S1x64.Idx → EReal) = shapeCast _ (m ((c.tc : Thread nD τ).loc main_arg5)) Facts₀.shapeCasts_S64_S1x64 := by
    dsimp only [V, hostOps0]; after_results_simp <;> rfl
  rw [e]
  exact shapeCast_apply _ _ (ix2 0 k) (ix1 k)
    (by rw [Shape.rowMajor_val_one, Shape.rowMajor_val_two]; show k.val = 0 * 64 + k.val; omega)

set_option maxHeartbeats 8000000 in
/-- The low-pass filter's gate bias as a 1 × 1 array: its entry is the one-element vector's entry. -/
theorem gbias_lp (c : Dev nD) : V m c main_v44 (ix2 0 0) = (m ((c.tc : Thread nD τ).loc main_arg15)) (ix1 0) := by
  have e : (V m c main_v44 : S1x1.Idx → EReal) = shapeCast _ (m ((c.tc : Thread nD τ).loc main_arg15)) Facts₀.shapeCasts_S1_S1x1 := by
    dsimp only [V, hostOps0]; after_results_simp <;> rfl
  rw [e]
  exact shapeCast_apply _ _ (ix2 0 0) (ix1 0)
    (by rw [Shape.rowMajor_val_one, Shape.rowMajor_val_two]; show (0 : Nat) = 0 * 1 + 0; omega)

set_option maxHeartbeats 8000000 in
/-- The low-pass filter's gate weight laid as a row: entry `(0, k)` is the 64 × 1 weight's entry `(k, 0)`. -/
theorem gweight_lp (c : Dev nD) (k : Fin 64) : V m c main_v49 (ix2 0 k) = (m ((c.tc : Thread nD τ).loc main_arg14)) (ix2 k 0) := by
  have e : (V m c main_v49 : S1x64.Idx → EReal) = transpose S1x64 [1, 0] (m ((c.tc : Thread nD τ).loc main_arg14)) Facts₀.transposes_S64x1_S1x64_1_0 := by
    dsimp only [V, hostOps0]; after_results_simp <;> rfl
  rw [e]
  exact transpose_apply [1, 0] _ Facts₀.transposes_S64x1_S1x64_1_0 (ix2 0 k) (ix2 k 0) (fun b => match b with
    | ⟨0, _⟩ => rfl
    | ⟨1, _⟩ => rfl)

set_option maxHeartbeats 8000000 in
/-- The identity filter's bias row: entry `(0, k)` is the bias vector's entry `k`. -/
theorem bias_i (c : Dev nD) (k : Fin 64) : V m c main_v40 (ix2 0 k) = (m ((c.tc : Thread nD τ).loc main_arg7)) (ix1 k) := by
  have e : (V m c main_v40 : S1x64.Idx → EReal) = shapeCast _ (m ((c.tc : Thread nD τ).loc main_arg7)) Facts₀.shapeCasts_S64_S1x64 := by
    dsimp only [V, hostOps0]; after_results_simp <;> rfl
  rw [e]
  exact shapeCast_apply _ _ (ix2 0 k) (ix1 k)
    (by rw [Shape.rowMajor_val_one, Shape.rowMajor_val_two]; show k.val = 0 * 64 + k.val; omega)

set_option maxHeartbeats 8000000 in
/-- The identity filter's gate bias as a 1 × 1 array: its entry is the one-element vector's entry. -/
theorem gbias_i (c : Dev nD) : V m c main_v45 (ix2 0 0) = (m ((c.tc : Thread nD τ).loc main_arg17)) (ix1 0) := by
  have e : (V m c main_v45 : S1x1.Idx → EReal) = shapeCast _ (m ((c.tc : Thread nD τ).loc main_arg17)) Facts₀.shapeCasts_S1_S1x1 := by
    dsimp only [V, hostOps0]; after_results_simp <;> rfl
  rw [e]
  exact shapeCast_apply _ _ (ix2 0 0) (ix1 0)
    (by rw [Shape.rowMajor_val_one, Shape.rowMajor_val_two]; show (0 : Nat) = 0 * 1 + 0; omega)

set_option maxHeartbeats 8000000 in
/-- The identity filter's gate weight laid as a row: entry `(0, k)` is the 64 × 1 weight's entry `(k, 0)`. -/
theorem gweight_i (c : Dev nD) (k : Fin 64) : V m c main_v50 (ix2 0 k) = (m ((c.tc : Thread nD τ).loc main_arg16)) (ix2 k 0) := by
  have e : (V m c main_v50 : S1x64.Idx → EReal) = transpose S1x64 [1, 0] (m ((c.tc : Thread nD τ).loc main_arg16)) Facts₀.transposes_S64x1_S1x64_1_0 := by
    dsimp only [V, hostOps0]; after_results_simp <;> rfl
  rw [e]
  exact transpose_apply [1, 0] _ Facts₀.transposes_S64x1_S1x64_1_0 (ix2 0 k) (ix2 k 0) (fun b => match b with
    | ⟨0, _⟩ => rfl
    | ⟨1, _⟩ => rfl)

set_option maxHeartbeats 8000000 in
/-- The squared high-pass filter's bias row: entry `(0, k)` is the bias vector's entry `k`. -/
theorem bias_hp2 (c : Dev nD) (k : Fin 64) : V m c main_v41 (ix2 0 k) = (m ((c.tc : Thread nD τ).loc main_arg9)) (ix1 k) := by
  have e : (V m c main_v41 : S1x64.Idx → EReal) = shapeCast _ (m ((c.tc : Thread nD τ).loc main_arg9)) Facts₀.shapeCasts_S64_S1x64 := by
    dsimp only [V, hostOps0]; after_results_simp <;> rfl
  rw [e]
  exact shapeCast_apply _ _ (ix2 0 k) (ix1 k)
    (by rw [Shape.rowMajor_val_one, Shape.rowMajor_val_two]; show k.val = 0 * 64 + k.val; omega)

set_option maxHeartbeats 8000000 in
/-- The squared high-pass filter's gate bias as a 1 × 1 array: its entry is the one-element vector's entry. -/
theorem gbias_hp2 (c : Dev nD) : V m c main_v46 (ix2 0 0) = (m ((c.tc : Thread nD τ).loc main_arg19)) (ix1 0) := by
  have e : (V m c main_v46 : S1x1.Idx → EReal) = shapeCast _ (m ((c.tc : Thread nD τ).loc main_arg19)) Facts₀.shapeCasts_S1_S1x1 := by
    dsimp only [V, hostOps0]; after_results_simp <;> rfl
  rw [e]
  exact shapeCast_apply _ _ (ix2 0 0) (ix1 0)
    (by rw [Shape.rowMajor_val_one, Shape.rowMajor_val_two]; show (0 : Nat) = 0 * 1 + 0; omega)

set_option maxHeartbeats 8000000 in
/-- The squared high-pass filter's gate weight laid as a row: entry `(0, k)` is the 64 × 1 weight's entry `(k, 0)`. -/
theorem gweight_hp2 (c : Dev nD) (k : Fin 64) : V m c main_v51 (ix2 0 k) = (m ((c.tc : Thread nD τ).loc main_arg18)) (ix2 k 0) := by
  have e : (V m c main_v51 : S1x64.Idx → EReal) = transpose S1x64 [1, 0] (m ((c.tc : Thread nD τ).loc main_arg18)) Facts₀.transposes_S64x1_S1x64_1_0 := by
    dsimp only [V, hostOps0]; after_results_simp <;> rfl
  rw [e]
  exact transpose_apply [1, 0] _ Facts₀.transposes_S64x1_S1x64_1_0 (ix2 0 k) (ix2 k 0) (fun b => match b with
    | ⟨0, _⟩ => rfl
    | ⟨1, _⟩ => rfl)

set_option maxHeartbeats 8000000 in
/-- The squared low-pass filter's bias row: entry `(0, k)` is the bias vector's entry `k`. -/
theorem bias_lp2 (c : Dev nD) (k : Fin 64) : V m c main_v42 (ix2 0 k) = (m ((c.tc : Thread nD τ).loc main_arg11)) (ix1 k) := by
  have e : (V m c main_v42 : S1x64.Idx → EReal) = shapeCast _ (m ((c.tc : Thread nD τ).loc main_arg11)) Facts₀.shapeCasts_S64_S1x64 := by
    dsimp only [V, hostOps0]; after_results_simp <;> rfl
  rw [e]
  exact shapeCast_apply _ _ (ix2 0 k) (ix1 k)
    (by rw [Shape.rowMajor_val_one, Shape.rowMajor_val_two]; show k.val = 0 * 64 + k.val; omega)

set_option maxHeartbeats 8000000 in
/-- The squared low-pass filter's gate bias as a 1 × 1 array: its entry is the one-element vector's entry. -/
theorem gbias_lp2 (c : Dev nD) : V m c main_v47 (ix2 0 0) = (m ((c.tc : Thread nD τ).loc main_arg21)) (ix1 0) := by
  have e : (V m c main_v47 : S1x1.Idx → EReal) = shapeCast _ (m ((c.tc : Thread nD τ).loc main_arg21)) Facts₀.shapeCasts_S1_S1x1 := by
    dsimp only [V, hostOps0]; after_results_simp <;> rfl
  rw [e]
  exact shapeCast_apply _ _ (ix2 0 0) (ix1 0)
    (by rw [Shape.rowMajor_val_one, Shape.rowMajor_val_two]; show (0 : Nat) = 0 * 1 + 0; omega)

set_option maxHeartbeats 8000000 in
/-- The squared low-pass filter's gate weight laid as a row: entry `(0, k)` is the 64 × 1 weight's entry `(k, 0)`. -/
theorem gweight_lp2 (c : Dev nD) (k : Fin 64) : V m c main_v52 (ix2 0 k) = (m ((c.tc : Thread nD τ).loc main_arg20)) (ix2 k 0) := by
  have e : (V m c main_v52 : S1x64.Idx → EReal) = transpose S1x64 [1, 0] (m ((c.tc : Thread nD τ).loc main_arg20)) Facts₀.transposes_S64x1_S1x64_1_0 := by
    dsimp only [V, hostOps0]; after_results_simp <;> rfl
  rw [e]
  exact transpose_apply [1, 0] _ Facts₀.transposes_S64x1_S1x64_1_0 (ix2 0 k) (ix2 k 0) (fun b => match b with
    | ⟨0, _⟩ => rfl
    | ⟨1, _⟩ => rfl)

/-! ## The mixture of what the region finds -/

/-- The result array the run ends with is the mixture of the program's arguments, the neighbourhood averages being the
    reference's stages of the first two of them. -/
theorem result_eq (c : Dev nD) :
    arrMix (V m c main_arg0) (V m c main_v24) (V m c main_v37) (V m c main_arg2) (V m c main_v38) (V m c main_v48) (V m c main_v43) (V m c main_arg4) (V m c main_v39) (V m c main_v49) (V m c main_v44) (V m c main_arg6) (V m c main_v40) (V m c main_v50) (V m c main_v45) (V m c main_arg8) (V m c main_v41) (V m c main_v51) (V m c main_v46) (V m c main_arg10) (V m c main_v42) (V m c main_v52) (V m c main_v47)
      = nodeMix (m ((c.tc : Thread nD τ).loc main_arg0))
          (Cert.ReferenceIdeal.Read.val_main_v24 (F := Ideal) (m ((c.tc : Thread nD τ).loc main_arg0)) (m ((c.tc : Thread nD τ).loc main_arg1)))
          (Cert.ReferenceIdeal.Read.val_main_v37 (F := Ideal) (m ((c.tc : Thread nD τ).loc main_arg0)) (m ((c.tc : Thread nD τ).loc main_arg1)))
          (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  funext i
  unfold arrMix nodeMix rowMix nodeMixAt
  simp only [V_main_arg0 m c, V_main_arg2 m c, V_main_arg4 m c, V_main_arg6 m c, V_main_arg8 m c, V_main_arg10 m c, found_ax m c, found_aax m c, bias_hp m c, gbias_hp m c, gweight_hp m c, bias_lp m c, gbias_lp m c, gweight_lp m c, bias_i m c, gbias_i m c, gweight_i m c, bias_hp2 m c, gbias_hp2 m c, gweight_hp2 m c, bias_lp2 m c, gbias_lp2 m c, gweight_lp2 m c]

end Cert.KernelIdeal.Entry

end
-- ==== Proof.Rows.lean ====
/-
  The reference, one node at a time.

  The reference applies each filter to all 50000 rows at once: a matrix product with a 64 × 64 weight, a bias,
  a rectifier; a product with a 64 × 1 weight, a bias, and the logistic function written out as
  `1 / (1 + exp (-g))`; then the gate, squeezed to a vector and spread back over the 64 columns, times the hidden
  rows.  Read at row `r` every one of these steps only looks at row `r` of its input, so each filter at
  `(r, j)` is `Filter.gated` of row `r`, and the sum of the five, started from zero, is `Filter.mix`.
  The neighbourhood averages `Âx` and `Â²x` stay the unopened arrays the reference's earlier operations produce.
-/
import proofs.«102541_j52012053954565_2_alg».proof.Proof.Gen.ReferenceIdeal.Read
import proofs.«102541_j52012053954565_2_alg».proof.Proof.Filter

noncomputable section

namespace Cert.ReferenceIdeal.Rows

open Cert.ReferenceIdeal Cert.ReferenceIdeal.Read Idealize.ShloMosaic Idealize.ShloMosaic.ValueIdx Cert.Filter

/-! ## The high-pass filter -/

/-- Its hidden rows: entry `(r, k)` is the rectified dense layer of row `r` of the filter's input at unit `k`. -/
theorem hidden_hp (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (r : Fin 50000) (k : Fin 64) :
    val_main_v48 (F := Ideal) x0 x1 x2 x3 (ix2 r k) = hid (fun l => (val_main_v38 (F := Ideal) x0 x1) (ix2 r l)) (fun l k => x2 (ix2 l k)) (fun k => x3 (ix1 k)) k := by
  rw [val_main_v48_apply, val_main_v47_apply, val_main_v44_apply, val_main_v46_apply, val_main_v45_apply,
    val_main_call0_v0_apply, val_main_call0_cst_apply]
  have el : ∀ l : Fin 64, lidx_main_v44 (ix2 r k) l = ix2 r l := fun l => funext fun a => by
    match a with | ⟨0, _⟩ => rfl | ⟨1, _⟩ => rfl
  have er : ∀ l : Fin 64, ridx_main_v44 (ix2 r k) l = ix2 l k := fun l => funext fun a => by
    match a with | ⟨0, _⟩ => rfl | ⟨1, _⟩ => rfl
  have eb : idx_main_v45 (idx_main_v46 (ix2 r k)) = ix1 k := funext fun a => by
    match a with | ⟨0, _⟩ => rfl
  simp only [el, er, eb]
  rfl

/-- Its gate before it is squeezed and spread: entry `(r, 0)` is the gate of row `r`; the quotient the
    reference writes is the logistic function. -/
theorem gate_hp (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x12 : (⟨S64x1, .f32⟩ : BufTy).Contents (Elt Ideal)) (x13 : (⟨S1, .f32⟩ : BufTy).Contents (Elt Ideal)) (r : Fin 50000) :
    val_main_v58 (F := Ideal) x0 x1 x2 x3 x12 x13 (ix2 r 0) = gate (fun l => (val_main_v38 (F := Ideal) x0 x1) (ix2 r l)) (fun l k => x2 (ix2 l k)) (fun k => x3 (ix1 k)) (fun k => x12 (ix2 k 0)) (x13 (ix1 0)) := by
  rw [val_main_v58_apply, val_main_v57_apply, val_main_cst_11_apply, val_main_v56_apply, val_main_v55_apply,
    val_main_cst_10_apply, val_main_v54_apply, val_main_v53_apply, val_main_v52_apply, val_main_v49_apply,
    val_main_v51_apply, val_main_v50_apply]
  have el : ∀ k : Fin 64, lidx_main_v49 (ix2 r 0) k = ix2 r k := fun k => funext fun a => by
    match a with | ⟨0, _⟩ => rfl | ⟨1, _⟩ => rfl
  have er : ∀ k : Fin 64, ridx_main_v49 (ix2 r 0) k = ix2 k 0 := fun k => funext fun a => by
    match a with | ⟨0, _⟩ => rfl | ⟨1, _⟩ => rfl
  have eb : idx_main_v50 (idx_main_v51 (ix2 r 0)) = ix1 0 := funext fun a => by
    match a with | ⟨0, _⟩ => rfl
  have hs : (∑ k : Fin 64, (val_main_v48 (F := Ideal) x0 x1 x2 x3) (lidx_main_v49 (ix2 r 0) k) * x12 (ridx_main_v49 (ix2 r 0) k))
      = ∑ k : Fin 64, hid (fun l => (val_main_v38 (F := Ideal) x0 x1) (ix2 r l)) (fun l k => x2 (ix2 l k)) (fun k => x3 (ix1 k)) k * x12 (ix2 k 0) :=
    Finset.sum_congr rfl fun k _ => by rw [el k, er k, hidden_hp]
  rw [hs, eb]
  show _ = Ideal.logistic ((∑ k : Fin 64, hid (fun l => (val_main_v38 (F := Ideal) x0 x1) (ix2 r l)) (fun l k => x2 (ix2 l k)) (fun k => x3 (ix1 k)) k * x12 (ix2 k 0)) + x13 (ix1 0))
  generalize (∑ k : Fin 64, hid (fun l => (val_main_v38 (F := Ideal) x0 x1) (ix2 r l)) (fun l k => x2 (ix2 l k)) (fun k => x3 (ix1 k)) k * x12 (ix2 k 0)) = S
  exact logistic_spelled _

/-- Its contribution: entry `(r, j)` is the gate of row `r` times hidden unit `j` of row `r`. -/
theorem gated_hp (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x12 : (⟨S64x1, .f32⟩ : BufTy).Contents (Elt Ideal)) (x13 : (⟨S1, .f32⟩ : BufTy).Contents (Elt Ideal)) (r : Fin 50000) (j : Fin 64) :
    val_main_v62 (F := Ideal) x0 x1 x2 x3 x12 x13 (ix2 r j) = gated (fun l => (val_main_v38 (F := Ideal) x0 x1) (ix2 r l)) (fun l k => x2 (ix2 l k)) (fun k => x3 (ix1 k)) (fun k => x12 (ix2 k 0)) (x13 (ix1 0)) j := by
  rw [val_main_v62_apply, val_main_v61_apply, val_main_v60_apply, val_main_v59_apply]
  have e : idx_main_v59 (idx_main_v60 (idx_main_v61 (ix2 r j))) = ix2 r 0 := funext fun a => Fin.ext (by
    match a with | ⟨0, _⟩ => exact Nat.div_one _ | ⟨1, _⟩ => rfl)
  rw [e, gate_hp, hidden_hp]
  rfl

/-! ## The low-pass filter -/

/-- Its hidden rows: entry `(r, k)` is the rectified dense layer of row `r` of the filter's input at unit `k`. -/
theorem hidden_lp (x0 : (⟨S50000x64, .f32⟩ : BufTy).Contents (Elt Ideal)) (x1 : (⟨S2x800000, .i32⟩ : BufTy).Contents (Elt Ideal)) (x4 : (⟨S64x64, .f32⟩ : BufTy).Contents (Elt Ideal)) (x5 : (⟨S64, .f32⟩ : BufTy).Contents (Elt Ideal)) (r : Fin 50000) (k : Fin 64) :
    val_main_v68 (F := Ideal) x0 x1 x4 x5 (ix2 r k) = hid (fun l => (val_main_v24 (F := Ideal) x0 x1) (ix2 r l)) (fun l k => x4 (ix2 l k)) (fun k => x5 (ix1 k)) k := by
  rw [val_main_v68_apply, val_main_v67_apply, val_main_v64_apply, val_main_v66_apply, val_main_v65_apply,
    val_main_call1_v0_apply, val_main_call1_cst_apply]
  have el : ∀ l : Fin 64, lidx_main_v64 (ix2 r k) l = ix2 r l := fun l => funext fun a => by
    match a with | ⟨0, _⟩ => rfl | ⟨1, _⟩ => rfl
  have er : ∀ l : Fin 64, ridx_main_v64 (ix2 r k) l = ix2 l k := fun l => funext fun a => by
    match a with | ⟨0, _⟩ => rfl | ⟨1, _⟩ => rfl
  have eb : idx_main_v65 (idx_main_v66 (ix2 r k)) = ix1 k := funext fun a => by
    match a with | ⟨0, _⟩ => rfl
  simp only [el, er, eb]
  rfl

/-- Its gate before it is squeezed and spread: entry `(r, 0)` is the gate of row `r`; the quotient the
    reference writes is the logistic function. -/
theorem gate_lp (x0 : (⟨S50000x64, .f32⟩ : BufTy).Contents (Elt Ideal)) (x1 : (⟨S2x800000, .i32⟩ : BufTy).Contents (Elt Ideal)) (x4 : (⟨S64x64, .f32⟩ : BufTy).Contents (Elt Ideal)) (x5 : (⟨S64, .f32⟩ : BufTy).Contents (Elt Ideal)) (x14 : (⟨S64x1, .f32⟩ : BufTy).Contents (Elt Ideal)) (x15 : (⟨S1, .f32⟩ : BufTy).Contents (Elt Ideal)) (r : Fin 50000) :
    val_main_v78 (F := Ideal) x0 x1 x4 x5 x14 x15 (ix2 r 0) = gate (fun l => (val_main_v24 (F := Ideal) x0 x1) (ix2 r l)) (fun l k => x4 (ix2 l k)) (fun k => x5 (ix1 k)) (fun k => x14 (ix2 k 0)) (x15 (ix1 0)) := by
  rw [val_main_v78_apply, val_main_v77_apply, val_main_cst_13_apply, val_main_v76_apply, val_main_v75_apply,
    val_main_cst_12_apply, val_main_v74_apply, val_main_v73_apply, val_main_v72_apply, val_main_v69_apply,
    val_main_v71_apply, val_main_v70_apply]
  have el : ∀ k : Fin 64, lidx_main_v69 (ix2 r 0) k = ix2 r k := fun k => funext fun a => by
    match a with | ⟨0, _⟩ => rfl | ⟨1, _⟩ => rfl
  have er : ∀ k : Fin 64, ridx_main_v69 (ix2 r 0) k = ix2 k 0 := fun k => funext fun a => by
    match a with | ⟨0, _⟩ => rfl | ⟨1, _⟩ => rfl
  have eb : idx_main_v70 (idx_main_v71 (ix2 r 0)) = ix1 0 := funext fun a => by
    match a with | ⟨0, _⟩ => rfl
  have hs : (∑ k : Fin 64, (val_main_v68 (F := Ideal) x0 x1 x4 x5) (lidx_main_v69 (ix2 r 0) k) * x14 (ridx_main_v69 (ix2 r 0) k))
      = ∑ k : Fin 64, hid (fun l => (val_main_v24 (F := Ideal) x0 x1) (ix2 r l)) (fun l k => x4 (ix2 l k)) (fun k => x5 (ix1 k)) k * x14 (ix2 k 0) :=
    Finset.sum_congr rfl fun k _ => by rw [el k, er k, hidden_lp]
  rw [hs, eb]
  show _ = Ideal.logistic ((∑ k : Fin 64, hid (fun l => (val_main_v24 (F := Ideal) x0 x1) (ix2 r l)) (fun l k => x4 (ix2 l k)) (fun k => x5 (ix1 k)) k * x14 (ix2 k 0)) + x15 (ix1 0))
  generalize (∑ k : Fin 64, hid (fun l => (val_main_v24 (F := Ideal) x0 x1) (ix2 r l)) (fun l k => x4 (ix2 l k)) (fun k => x5 (ix1 k)) k * x14 (ix2 k 0)) = S
  exact logistic_spelled _

/-- Its contribution: entry `(r, j)` is the gate of row `r` times hidden unit `j` of row `r`. -/
theorem gated_lp (x0 : (⟨S50000x64, .f32⟩ : BufTy).Contents (Elt Ideal)) (x1 : (⟨S2x800000, .i32⟩ : BufTy).Contents (Elt Ideal)) (x4 : (⟨S64x64, .f32⟩ : BufTy).Contents (Elt Ideal)) (x5 : (⟨S64, .f32⟩ : BufTy).Contents (Elt Ideal)) (x14 : (⟨S64x1, .f32⟩ : BufTy).Contents (Elt Ideal)) (x15 : (⟨S1, .f32⟩ : BufTy).Contents (Elt Ideal)) (r : Fin 50000) (j : Fin 64) :
    val_main_v82 (F := Ideal) x0 x1 x4 x5 x14 x15 (ix2 r j) = gated (fun l => (val_main_v24 (F := Ideal) x0 x1) (ix2 r l)) (fun l k => x4 (ix2 l k)) (fun k => x5 (ix1 k)) (fun k => x14 (ix2 k 0)) (x15 (ix1 0)) j := by
  rw [val_main_v82_apply, val_main_v81_apply, val_main_v80_apply, val_main_v79_apply]
  have e : idx_main_v79 (idx_main_v80 (idx_main_v81 (ix2 r j))) = ix2 r 0 := funext fun a => Fin.ext (by
    match a with | ⟨0, _⟩ => exact Nat.div_one _ | ⟨1, _⟩ => rfl)
  rw [e, gate_lp, hidden_lp]
  rfl

/-! ## The squared high-pass filter -/

/-- Its hidden rows: entry `(r, k)` is the rectified dense layer of row `r` of the filter's input at unit `k`. -/
theorem hidden_hp2 (x0 : (⟨S50000x64, .f32⟩ : BufTy).Contents (Elt Ideal)) (x1 : (⟨S2x800000, .i32⟩ : BufTy).Contents (Elt Ideal)) (x8 : (⟨S64x64, .f32⟩ : BufTy).Contents (Elt Ideal)) (x9 : (⟨S64, .f32⟩ : BufTy).Contents (Elt Ideal)) (r : Fin 50000) (k : Fin 64) :
    val_main_v88 (F := Ideal) x0 x1 x8 x9 (ix2 r k) = hid (fun l => (val_main_v42 (F := Ideal) x0 x1) (ix2 r l)) (fun l k => x8 (ix2 l k)) (fun k => x9 (ix1 k)) k := by
  rw [val_main_v88_apply, val_main_v87_apply, val_main_v84_apply, val_main_v86_apply, val_main_v85_apply,
    val_main_call2_v0_apply, val_main_call2_cst_apply]
  have el : ∀ l : Fin 64, lidx_main_v84 (ix2 r k) l = ix2 r l := fun l => funext fun a => by
    match a with | ⟨0, _⟩ => rfl | ⟨1, _⟩ => rfl
  have er : ∀ l : Fin 64, ridx_main_v84 (ix2 r k) l = ix2 l k := fun l => funext fun a => by
    match a with | ⟨0, _⟩ => rfl | ⟨1, _⟩ => rfl
  have eb : idx_main_v85 (idx_main_v86 (ix2 r k)) = ix1 k := funext fun a => by
    match a with | ⟨0, _⟩ => rfl
  simp only [el, er, eb]
  rfl

/-- Its gate before it is squeezed and spread: entry `(r, 0)` is the gate of row `r`; the quotient the
    reference writes is the logistic function. -/
theorem gate_hp2 (x0 : (⟨S50000x64, .f32⟩ : BufTy).Contents (Elt Ideal)) (x1 : (⟨S2x800000, .i32⟩ : BufTy).Contents (Elt Ideal)) (x8 : (⟨S64x64, .f32⟩ : BufTy).Contents (Elt Ideal)) (x9 : (⟨S64, .f32⟩ : BufTy).Contents (Elt Ideal)) (x18 : (⟨S64x1, .f32⟩ : BufTy).Contents (Elt Ideal)) (x19 : (⟨S1, .f32⟩ : BufTy).Contents (Elt Ideal)) (r : Fin 50000) :
    val_main_v98 (F := Ideal) x0 x1 x8 x9 x18 x19 (ix2 r 0) = gate (fun l => (val_main_v42 (F := Ideal) x0 x1) (ix2 r l)) (fun l k => x8 (ix2 l k)) (fun k => x9 (ix1 k)) (fun k => x18 (ix2 k 0)) (x19 (ix1 0)) := by
  rw [val_main_v98_apply, val_main_v97_apply, val_main_cst_15_apply, val_main_v96_apply, val_main_v95_apply,
    val_main_cst_14_apply, val_main_v94_apply, val_main_v93_apply, val_main_v92_apply, val_main_v89_apply,
    val_main_v91_apply, val_main_v90_apply]
  have el : ∀ k : Fin 64, lidx_main_v89 (ix2 r 0) k = ix2 r k := fun k => funext fun a => by
    match a with | ⟨0, _⟩ => rfl | ⟨1, _⟩ => rfl
  have er : ∀ k : Fin 64, ridx_main_v89 (ix2 r 0) k = ix2 k 0 := fun k => funext fun a => by
    match a with | ⟨0, _⟩ => rfl | ⟨1, _⟩ => rfl
  have eb : idx_main_v90 (idx_main_v91 (ix2 r 0)) = ix1 0 := funext fun a => by
    match a with | ⟨0, _⟩ => rfl
  have hs : (∑ k : Fin 64, (val_main_v88 (F := Ideal) x0 x1 x8 x9) (lidx_main_v89 (ix2 r 0) k) * x18 (ridx_main_v89 (ix2 r 0) k))
      = ∑ k : Fin 64, hid (fun l => (val_main_v42 (F := Ideal) x0 x1) (ix2 r l)) (fun l k => x8 (ix2 l k)) (fun k => x9 (ix1 k)) k * x18 (ix2 k 0) :=
    Finset.sum_congr rfl fun k _ => by rw [el k, er k, hidden_hp2]
  rw [hs, eb]
  show _ = Ideal.logistic ((∑ k : Fin 64, hid (fun l => (val_main_v42 (F := Ideal) x0 x1) (ix2 r l)) (fun l k => x8 (ix2 l k)) (fun k => x9 (ix1 k)) k * x18 (ix2 k 0)) + x19 (ix1 0))
  generalize (∑ k : Fin 64, hid (fun l => (val_main_v42 (F := Ideal) x0 x1) (ix2 r l)) (fun l k => x8 (ix2 l k)) (fun k => x9 (ix1 k)) k * x18 (ix2 k 0)) = S
  exact logistic_spelled _

/-- Its contribution: entry `(r, j)` is the gate of row `r` times hidden unit `j` of row `r`. -/
theorem gated_hp2 (x0 : (⟨S50000x64, .f32⟩ : BufTy).Contents (Elt Ideal)) (x1 : (⟨S2x800000, .i32⟩ : BufTy).Contents (Elt Ideal)) (x8 : (⟨S64x64, .f32⟩ : BufTy).Contents (Elt Ideal)) (x9 : (⟨S64, .f32⟩ : BufTy).Contents (Elt Ideal)) (x18 : (⟨S64x1, .f32⟩ : BufTy).Contents (Elt Ideal)) (x19 : (⟨S1, .f32⟩ : BufTy).Contents (Elt Ideal)) (r : Fin 50000) (j : Fin 64) :
    val_main_v102 (F := Ideal) x0 x1 x8 x9 x18 x19 (ix2 r j) = gated (fun l => (val_main_v42 (F := Ideal) x0 x1) (ix2 r l)) (fun l k => x8 (ix2 l k)) (fun k => x9 (ix1 k)) (fun k => x18 (ix2 k 0)) (x19 (ix1 0)) j := by
  rw [val_main_v102_apply, val_main_v101_apply, val_main_v100_apply, val_main_v99_apply]
  have e : idx_main_v99 (idx_main_v100 (idx_main_v101 (ix2 r j))) = ix2 r 0 := funext fun a => Fin.ext (by
    match a with | ⟨0, _⟩ => exact Nat.div_one _ | ⟨1, _⟩ => rfl)
  rw [e, gate_hp2, hidden_hp2]
  rfl

/-! ## The squared low-pass filter -/

/-- Its hidden rows: entry `(r, k)` is the rectified dense layer of row `r` of the filter's input at unit `k`. -/
theorem hidden_lp2 (x0 : (⟨S50000x64, .f32⟩ : BufTy).Contents (Elt Ideal)) (x1 : (⟨S2x800000, .i32⟩ : BufTy).Contents (Elt Ideal)) (x10 : (⟨S64x64, .f32⟩ : BufTy).Contents (Elt Ideal)) (x11 : (⟨S64, .f32⟩ : BufTy).Contents (Elt Ideal)) (r : Fin 50000) (k : Fin 64) :
    val_main_v108 (F := Ideal) x0 x1 x10 x11 (ix2 r k) = hid (fun l => (val_main_v37 (F := Ideal) x0 x1) (ix2 r l)) (fun l k => x10 (ix2 l k)) (fun k => x11 (ix1 k)) k := by
  rw [val_main_v108_apply, val_main_v107_apply, val_main_v104_apply, val_main_v106_apply, val_main_v105_apply,
    val_main_call3_v0_apply, val_main_call3_cst_apply]
  have el : ∀ l : Fin 64, lidx_main_v104 (ix2 r k) l = ix2 r l := fun l => funext fun a => by
    match a with | ⟨0, _⟩ => rfl | ⟨1, _⟩ => rfl
  have er : ∀ l : Fin 64, ridx_main_v104 (ix2 r k) l = ix2 l k := fun l => funext fun a => by
    match a with | ⟨0, _⟩ => rfl | ⟨1, _⟩ => rfl
  have eb : idx_main_v105 (idx_main_v106 (ix2 r k)) = ix1 k := funext fun a => by
    match a with | ⟨0, _⟩ => rfl
  simp only [el, er, eb]
  rfl

/-- Its gate before it is squeezed and spread: entry `(r, 0)` is the gate of row `r`; the quotient the
    reference writes is the logistic function. -/
theorem gate_lp2 (x0 : (⟨S50000x64, .f32⟩ : BufTy).Contents (Elt Ideal)) (x1 : (⟨S2x800000, .i32⟩ : BufTy).Contents (Elt Ideal)) (x10 : (⟨S64x64, .f32⟩ : BufTy).Contents (Elt Ideal)) (x11 : (⟨S64, .f32⟩ : BufTy).Contents (Elt Ideal)) (x20 : (⟨S64x1, .f32⟩ : BufTy).Contents (Elt Ideal)) (x21 : (⟨S1, .f32⟩ : BufTy).Contents (Elt Ideal)) (r : Fin 50000) :
    val_main_v118 (F := Ideal) x0 x1 x10 x11 x20 x21 (ix2 r 0) = gate (fun l => (val_main_v37 (F := Ideal) x0 x1) (ix2 r l)) (fun l k => x10 (ix2 l k)) (fun k => x11 (ix1 k)) (fun k => x20 (ix2 k 0)) (x21 (ix1 0)) := by
  rw [val_main_v118_apply, val_main_v117_apply, val_main_cst_17_apply, val_main_v116_apply, val_main_v115_apply,
    val_main_cst_16_apply, val_main_v114_apply, val_main_v113_apply, val_main_v112_apply, val_main_v109_apply,
    val_main_v111_apply, val_main_v110_apply]
  have el : ∀ k : Fin 64, lidx_main_v109 (ix2 r 0) k = ix2 r k := fun k => funext fun a => by
    match a with | ⟨0, _⟩ => rfl | ⟨1, _⟩ => rfl
  have er : ∀ k : Fin 64, ridx_main_v109 (ix2 r 0) k = ix2 k 0 := fun k => funext fun a => by
    match a with | ⟨0, _⟩ => rfl | ⟨1, _⟩ => rfl
  have eb : idx_main_v110 (idx_main_v111 (ix2 r 0)) = ix1 0 := funext fun a => by
    match a with | ⟨0, _⟩ => rfl
  have hs : (∑ k : Fin 64, (val_main_v108 (F := Ideal) x0 x1 x10 x11) (lidx_main_v109 (ix2 r 0) k) * x20 (ridx_main_v109 (ix2 r 0) k))
      = ∑ k : Fin 64, hid (fun l => (val_main_v37 (F := Ideal) x0 x1) (ix2 r l)) (fun l k => x10 (ix2 l k)) (fun k => x11 (ix1 k)) k * x20 (ix2 k 0) :=
    Finset.sum_congr rfl fun k _ => by rw [el k, er k, hidden_lp2]
  rw [hs, eb]
  show _ = Ideal.logistic ((∑ k : Fin 64, hid (fun l => (val_main_v37 (F := Ideal) x0 x1) (ix2 r l)) (fun l k => x10 (ix2 l k)) (fun k => x11 (ix1 k)) k * x20 (ix2 k 0)) + x21 (ix1 0))
  generalize (∑ k : Fin 64, hid (fun l => (val_main_v37 (F := Ideal) x0 x1) (ix2 r l)) (fun l k => x10 (ix2 l k)) (fun k => x11 (ix1 k)) k * x20 (ix2 k 0)) = S
  exact logistic_spelled _

/-- Its contribution: entry `(r, j)` is the gate of row `r` times hidden unit `j` of row `r`. -/
theorem gated_lp2 (x0 : (⟨S50000x64, .f32⟩ : BufTy).Contents (Elt Ideal)) (x1 : (⟨S2x800000, .i32⟩ : BufTy).Contents (Elt Ideal)) (x10 : (⟨S64x64, .f32⟩ : BufTy).Contents (Elt Ideal)) (x11 : (⟨S64, .f32⟩ : BufTy).Contents (Elt Ideal)) (x20 : (⟨S64x1, .f32⟩ : BufTy).Contents (Elt Ideal)) (x21 : (⟨S1, .f32⟩ : BufTy).Contents (Elt Ideal)) (r : Fin 50000) (j : Fin 64) :
    val_main_v122 (F := Ideal) x0 x1 x10 x11 x20 x21 (ix2 r j) = gated (fun l => (val_main_v37 (F := Ideal) x0 x1) (ix2 r l)) (fun l k => x10 (ix2 l k)) (fun k => x11 (ix1 k)) (fun k => x20 (ix2 k 0)) (x21 (ix1 0)) j := by
  rw [val_main_v122_apply, val_main_v121_apply, val_main_v120_apply, val_main_v119_apply]
  have e : idx_main_v119 (idx_main_v120 (idx_main_v121 (ix2 r j))) = ix2 r 0 := funext fun a => Fin.ext (by
    match a with | ⟨0, _⟩ => exact Nat.div_one _ | ⟨1, _⟩ => rfl)
  rw [e, gate_lp2, hidden_lp2]
  rfl

/-! ## The identity filter -/

/-- Its hidden rows: entry `(r, k)` is the rectified dense layer of row `r` of the filter's input at unit `k`. -/
theorem hidden_i (x0 : (⟨S50000x64, .f32⟩ : BufTy).Contents (Elt Ideal)) (x6 : (⟨S64x64, .f32⟩ : BufTy).Contents (Elt Ideal)) (x7 : (⟨S64, .f32⟩ : BufTy).Contents (Elt Ideal)) (r : Fin 50000) (k : Fin 64) :
    val_main_v128 (F := Ideal) x0 x6 x7 (ix2 r k) = hid (fun l => x0 (ix2 r l)) (fun l k => x6 (ix2 l k)) (fun k => x7 (ix1 k)) k := by
  rw [val_main_v128_apply, val_main_v127_apply, val_main_v124_apply, val_main_v126_apply, val_main_v125_apply,
    val_main_call4_v0_apply, val_main_call4_cst_apply]
  have el : ∀ l : Fin 64, lidx_main_v124 (ix2 r k) l = ix2 r l := fun l => funext fun a => by
    match a with | ⟨0, _⟩ => rfl | ⟨1, _⟩ => rfl
  have er : ∀ l : Fin 64, ridx_main_v124 (ix2 r k) l = ix2 l k := fun l => funext fun a => by
    match a with | ⟨0, _⟩ => rfl | ⟨1, _⟩ => rfl
  have eb : idx_main_v125 (idx_main_v126 (ix2 r k)) = ix1 k := funext fun a => by
    match a with | ⟨0, _⟩ => rfl
  simp only [el, er, eb]
  rfl

/-- Its gate before it is squeezed and spread: entry `(r, 0)` is the gate of row `r`; the quotient the
    reference writes is the logistic function. -/
theorem gate_i (x0 : (⟨S50000x64, .f32⟩ : BufTy).Contents (Elt Ideal)) (x6 : (⟨S64x64, .f32⟩ : BufTy).Contents (Elt Ideal)) (x7 : (⟨S64, .f32⟩ : BufTy).Contents (Elt Ideal)) (x16 : (⟨S64x1, .f32⟩ : BufTy).Contents (Elt Ideal)) (x17 : (⟨S1, .f32⟩ : BufTy).Contents (Elt Ideal)) (r : Fin 50000) :
    val_main_v138 (F := Ideal) x0 x6 x7 x16 x17 (ix2 r 0) = gate (fun l => x0 (ix2 r l)) (fun l k => x6 (ix2 l k)) (fun k => x7 (ix1 k)) (fun k => x16 (ix2 k 0)) (x17 (ix1 0)) := by
  rw [val_main_v138_apply, val_main_v137_apply, val_main_cst_19_apply, val_main_v136_apply, val_main_v135_apply,
    val_main_cst_18_apply, val_main_v134_apply, val_main_v133_apply, val_main_v132_apply, val_main_v129_apply,
    val_main_v131_apply, val_main_v130_apply]
  have el : ∀ k : Fin 64, lidx_main_v129 (ix2 r 0) k = ix2 r k := fun k => funext fun a => by
    match a with | ⟨0, _⟩ => rfl | ⟨1, _⟩ => rfl
  have er : ∀ k : Fin 64, ridx_main_v129 (ix2 r 0) k = ix2 k 0 := fun k => funext fun a => by
    match a with | ⟨0, _⟩ => rfl | ⟨1, _⟩ => rfl
  have eb : idx_main_v130 (idx_main_v131 (ix2 r 0)) = ix1 0 := funext fun a => by
    match a with | ⟨0, _⟩ => rfl
  have hs : (∑ k : Fin 64, (val_main_v128 (F := Ideal) x0 x6 x7) (lidx_main_v129 (ix2 r 0) k) * x16 (ridx_main_v129 (ix2 r 0) k))
      = ∑ k : Fin 64, hid (fun l => x0 (ix2 r l)) (fun l k => x6 (ix2 l k)) (fun k => x7 (ix1 k)) k * x16 (ix2 k 0) :=
    Finset.sum_congr rfl fun k _ => by rw [el k, er k, hidden_i]
  rw [hs, eb]
  show _ = Ideal.logistic ((∑ k : Fin 64, hid (fun l => x0 (ix2 r l)) (fun l k => x6 (ix2 l k)) (fun k => x7 (ix1 k)) k * x16 (ix2 k 0)) + x17 (ix1 0))
  generalize (∑ k : Fin 64, hid (fun l => x0 (ix2 r l)) (fun l k => x6 (ix2 l k)) (fun k => x7 (ix1 k)) k * x16 (ix2 k 0)) = S
  exact logistic_spelled _

/-- Its contribution: entry `(r, j)` is the gate of row `r` times hidden unit `j` of row `r`. -/
theorem gated_i (x0 : (⟨S50000x64, .f32⟩ : BufTy).Contents (Elt Ideal)) (x6 : (⟨S64x64, .f32⟩ : BufTy).Contents (Elt Ideal)) (x7 : (⟨S64, .f32⟩ : BufTy).Contents (Elt Ideal)) (x16 : (⟨S64x1, .f32⟩ : BufTy).Contents (Elt Ideal)) (x17 : (⟨S1, .f32⟩ : BufTy).Contents (Elt Ideal)) (r : Fin 50000) (j : Fin 64) :
    val_main_v142 (F := Ideal) x0 x6 x7 x16 x17 (ix2 r j) = gated (fun l => x0 (ix2 r l)) (fun l k => x6 (ix2 l k)) (fun k => x7 (ix1 k)) (fun k => x16 (ix2 k 0)) (x17 (ix1 0)) j := by
  rw [val_main_v142_apply, val_main_v141_apply, val_main_v140_apply, val_main_v139_apply]
  have e : idx_main_v139 (idx_main_v140 (idx_main_v141 (ix2 r j))) = ix2 r 0 := funext fun a => Fin.ext (by
    match a with | ⟨0, _⟩ => exact Nat.div_one _ | ⟨1, _⟩ => rfl)
  rw [e, gate_i, hidden_i]
  rfl

/-! ## The sum of the five -/

/-- Row `r` of the high-pass input is row `r` of `x` minus row `r` of `Âx`. -/
theorem hp_row (x0 : (⟨S50000x64, .f32⟩ : BufTy).Contents (Elt Ideal)) (x1 : (⟨S2x800000, .i32⟩ : BufTy).Contents (Elt Ideal)) (r : Fin 50000) :
    (fun l : Fin 64 => (val_main_v38 (F := Ideal) x0 x1) (ix2 r l))
      = hp (fun l => x0 (ix2 r l)) (fun l => val_main_v24 (F := Ideal) x0 x1 (ix2 r l)) := by
  funext l
  rw [val_main_v38_apply]
  rfl

/-- Row `r` of the squared high-pass input is `x - 2·Âx + Â²x` on row `r`. -/
theorem hp2_row (x0 : (⟨S50000x64, .f32⟩ : BufTy).Contents (Elt Ideal)) (x1 : (⟨S2x800000, .i32⟩ : BufTy).Contents (Elt Ideal)) (r : Fin 50000) :
    (fun l : Fin 64 => (val_main_v42 (F := Ideal) x0 x1) (ix2 r l))
      = hp2 (fun l => x0 (ix2 r l)) (fun l => val_main_v24 (F := Ideal) x0 x1 (ix2 r l))
          (fun l => val_main_v37 (F := Ideal) x0 x1 (ix2 r l)) := by
  funext l
  rw [val_main_v42_apply, val_main_v41_apply, val_main_v40_apply, val_main_v39_apply, val_main_cst_8_apply]
  rfl

/-- The reference's result at `(r, j)` is the mixture of row `r`: the five contributions added from a zero start,
    which the extended reals absorb. -/
theorem result_row (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (x14 : (⟨S64x1, .f32⟩ : BufTy).Contents (Elt Ideal)) (x15 : (⟨S1, .f32⟩ : BufTy).Contents (Elt Ideal)) (x16 : (⟨S64x1, .f32⟩ : BufTy).Contents (Elt Ideal)) (x17 : (⟨S1, .f32⟩ : BufTy).Contents (Elt Ideal)) (x18 : (⟨S64x1, .f32⟩ : BufTy).Contents (Elt Ideal)) (x19 : (⟨S1, .f32⟩ : BufTy).Contents (Elt Ideal)) (x20 : (⟨S64x1, .f32⟩ : BufTy).Contents (Elt Ideal)) (x21 : (⟨S1, .f32⟩ : BufTy).Contents (Elt Ideal)) (r : Fin 50000) (j : Fin 64) :
    val_main_v143 (F := Ideal) x0 x1 x2 x3 x4 x5 x6 x7 x8 x9 x10 x11 x12 x13 x14 x15 x16 x17 x18 x19 x20 x21 (ix2 r j)
      = mix (fun l => x0 (ix2 r l)) (fun l => val_main_v24 (F := Ideal) x0 x1 (ix2 r l)) (fun l => val_main_v37 (F := Ideal) x0 x1 (ix2 r l))
      (fun l k => x2 (ix2 l k)) (fun k => x3 (ix1 k)) (fun k => x12 (ix2 k 0)) (x13 (ix1 0))
      (fun l k => x4 (ix2 l k)) (fun k => x5 (ix1 k)) (fun k => x14 (ix2 k 0)) (x15 (ix1 0))
      (fun l k => x6 (ix2 l k)) (fun k => x7 (ix1 k)) (fun k => x16 (ix2 k 0)) (x17 (ix1 0))
      (fun l k => x8 (ix2 l k)) (fun k => x9 (ix1 k)) (fun k => x18 (ix2 k 0)) (x19 (ix1 0))
      (fun l k => x10 (ix2 l k)) (fun k => x11 (ix1 k)) (fun k => x20 (ix2 k 0)) (x21 (ix1 0)) j := by
  rw [val_main_v143_apply, val_main_v123_apply, val_main_v103_apply, val_main_v83_apply, val_main_v63_apply,
    val_main_v43_apply, val_main_cst_9_apply, gated_hp, gated_lp, gated_hp2, gated_lp2, gated_i, hp_row, hp2_row]
  simp only [Ideal.addf_def, Ideal.ofBits_def, Ideal.ofBits_zero_f32, zero_add]
  unfold mix
  rfl

/-- So the reference's whole result is the mixture of whole arrays. -/
theorem result_fun (x0 : (⟨S50000x64, .f32⟩ : BufTy).Contents (Elt Ideal)) (x1 : (⟨S2x800000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (x12 : (⟨S64x1, .f32⟩ : BufTy).Contents (Elt Ideal)) (x13 : (⟨S1, .f32⟩ : BufTy).Contents (Elt Ideal)) (x14 : (⟨S64x1, .f32⟩ : BufTy).Contents (Elt Ideal)) (x15 : (⟨S1, .f32⟩ : BufTy).Contents (Elt Ideal)) (x16 : (⟨S64x1, .f32⟩ : BufTy).Contents (Elt Ideal)) (x17 : (⟨S1, .f32⟩ : BufTy).Contents (Elt Ideal)) (x18 : (⟨S64x1, .f32⟩ : BufTy).Contents (Elt Ideal)) (x19 : (⟨S1, .f32⟩ : BufTy).Contents (Elt Ideal)) (x20 : (⟨S64x1, .f32⟩ : BufTy).Contents (Elt Ideal)) (x21 : (⟨S1, .f32⟩ : BufTy).Contents (Elt Ideal)) :
    val_main_v143 (F := Ideal) x0 x1 x2 x3 x4 x5 x6 x7 x8 x9 x10 x11 x12 x13 x14 x15 x16 x17 x18 x19 x20 x21
      = nodeMix x0 (val_main_v24 (F := Ideal) x0 x1) (val_main_v37 (F := Ideal) x0 x1) x2 x3 x4 x5 x6 x7 x8 x9 x10 x11 x12 x13 x14 x15 x16 x17 x18 x19 x20 x21 := by
  funext i
  obtain ⟨r, j, rfl⟩ : ∃ (r : Fin 50000) (j : Fin 64), i = ix2 r j := ⟨i 0, i 1, eq_ix2 i⟩
  show _ = nodeMixAt x0 (val_main_v24 (F := Ideal) x0 x1) (val_main_v37 (F := Ideal) x0 x1) x2 x3 x4 x5 x6 x7 x8 x9 x10 x11 x12 x13 x14 x15 x16 x17 x18 x19 x20 x21 r j
  unfold nodeMixAt
  exact result_row x0 x1 x2 x3 x4 x5 x6 x7 x8 x9 x10 x11 x12 x13 x14 x15 x16 x17 x18 x19 x20 x21 r j

end Cert.ReferenceIdeal.Rows

end
-- ==== Proof.lean ====
/-
  The certificate of the gated mixture of five graph filters.

  Both programs first average a node's features over its in-neighbours, twice (`Âx`, `Â²x`), with the same host
  operations in the same order; the kernel then computes, block of 5000 nodes by block, what the reference computes
  for all 50000 at once: for each of the inputs `x - Âx`, `Âx`, `x - 2·Âx + Â²x`, `Â²x`, `x` a dense layer with a
  rectifier, a scalar gate `σ (h · wa + ba)` of the hidden row, and the gate times the hidden row, the five added up.
  On the extended reals the kernel's matrix product into a zero accumulator is the reference's contraction, its
  lane sum against a row of weights is the reference's product with a 64 × 1 matrix, its logistic function is the
  reference's `1 / (1 + exp (-g))`, and the reference's zero start of the sum is absorbed: the two results are one
  function, `Filter.nodeMix`, of the arguments (Proof/Filter.lean states it; Proof/Block.lean and Proof/Mixture.lean read
  the kernel's blocks and its result array; Proof/Entry.lean reads the arrays the region finds; Proof/Rows.lean reads
  the reference).  No step needs the inputs to be finite, so the precondition is never opened.
  The idealization rewrote nothing, so its ledger is empty; the three frames are the generated ones.
-/
import proofs.«102541_j52012053954565_2_alg».proof.Defs
import proofs.«102541_j52012053954565_2_alg».proof.Proof.Gen.Kernel
import proofs.«102541_j52012053954565_2_alg».proof.Proof.Gen.KernelIdeal
import proofs.«102541_j52012053954565_2_alg».proof.Proof.Gen.ReferenceIdeal
import proofs.«102541_j52012053954565_2_alg».proof.Proof.Gen.Pre_finite_inputs
import proofs.«102541_j52012053954565_2_alg».proof.Proof.Gen.ReferenceIdeal.Run
import proofs.«102541_j52012053954565_2_alg».proof.Proof.Gen.ReferenceIdeal.Read
import proofs.«102541_j52012053954565_2_alg».proof.Proof.KernelFrameP
import proofs.«102541_j52012053954565_2_alg».proof.Proof.KernelIdealFrameP
import proofs.«102541_j52012053954565_2_alg».proof.Proof.Filter
import proofs.«102541_j52012053954565_2_alg».proof.Proof.Block
import proofs.«102541_j52012053954565_2_alg».proof.Proof.Mixture
import proofs.«102541_j52012053954565_2_alg».proof.Proof.Entry
import proofs.«102541_j52012053954565_2_alg».proof.Proof.Rows
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

set_option maxHeartbeats 4000000 in
/-- From memories agreeing on the arguments both programs end at the mixture of the arguments. -/
theorem algebraic : Cert.algebraic_KernelIdeal_ReferenceIdeal := by
  intro m ρ m' ρ' _ hagree
  refine ⟨fun c => Cert.Filter.nodeMix (m ((c.tc : Thread Cert.KernelIdeal.nD Cert.KernelIdeal.τ).loc Cert.KernelIdeal.main_arg0))
      (Cert.ReferenceIdeal.Read.val_main_v24 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21)), ?_, ?_⟩
  · exact (θ_run Cert.KernelIdeal.defs _ _).mono
      (fun r h c => ⟨(h c).1.trans (Cert.KernelIdeal.Entry.result_eq m c), (h c).2⟩) (Cert.KernelIdeal.Mixture.run m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6, h7, h8, h9, h10, h11, h12, h13, h14, h15, h16, h17, h18, h19, h20, h21⟩ := hagree c
    rw [(h c).1, Cert.ReferenceIdeal.Read.val_main_v143_eq, Cert.ReferenceIdeal.Rows.result_fun,
      h0, h1, h2, h3, h4, h5, h6, h7, h8, h9, h10, h11, h12, h13, h14, h15, h16, h17, h18, h19, h20, h21]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
